-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .bf16⟩
  | .local _ .vmem, ⟨10, _⟩ => ⟨S10000x128, .f32⟩
  | .local _ .vmem, ⟨11, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32_5 : BitVec 32 := 25#32
  let v14 : BitVec 1 := Scalar.cmpi .slt arg0 c25_i32_5
  let v15 : BitVec 32 := Scalar.extui v14
  let c0_i32_6 : BitVec 32 := 0#32
  let v16 : BitVec 1 := Scalar.cmpi .ne v15 c0_i32_6
  v16

def k0_off1 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c400_i32 : BitVec 32 := 400#32
  let v10 : BitVec 32 := Scalar.muli v9 c400_i32
  let v29 : Index := Scalar.indexCast v10
  let c0_15 : Index := 0#32
  ![v29.toNat, 0]
def k0_cond3 (i : grid0.Coords) : BitVec 1 :=
  let arg0 : BitVec 32 := BitVec.ofNat 32 (i 0).val
  let c25_i32_7 : BitVec 32 := 25#32
  let v17 : BitVec 1 := Scalar.cmpi .sge arg0 c25_i32_7
  let v18 : BitVec 32 := Scalar.extui v17
  let c0_i32_8 : BitVec 32 := 0#32
  let v19 : BitVec 1 := Scalar.cmpi .ne v18 c0_i32_8
  v19

def k0_off2 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c400_i32 : BitVec 32 := 400#32
  let v10 : BitVec 32 := Scalar.muli v9 c400_i32
  let v29 : Index := Scalar.indexCast v10
  let c0_15 : Index := 0#32
  ![v29.toNat, 0]
def cc0_transform_0 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  k0_off1_packedbf16 : ∀ i : grid0.Coords, ∀ (k0_h2 : k0_cond2 i = 1#1), (Rect.unit (s := S10000x128) (k0_off1 i) S400x128.size (k0_off1_inb i k0_h2)).PackedRows (EltTy.packing .bf16)
  k0_off2_inb : ∀ i : grid0.Coords, ∀ (k0_h3 : k0_cond3 i = 1#1), ∀ a, (k0_off2 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KBCases.lean ====
/-
  The grid of the one kernel has 50 points in two passes of 25 over the row blocks of the adjacency matrix.
  Here: the three branch conditions of the body in closed form over the grid (the first point; the first pass,
  points 0..24; the second pass, points 25..49), the row offset 400 * (t mod 25) of the block a point works on,
  where the output window is idle and not written back (the whole first pass), the memrefs the body is called
  with, and the region invariant with the three scratch buffers named.
-/
import proofs.«145158_g77695958385289_cont_9to1_m_732_18_alg».proof.Proof.Gen.Kernel.Frame
import proofs.«145158_g77695958385289_cont_9to1_m_732_18_alg».proof.Proof.Gen.Kernel.Skeleton
import Idealize.ShloMosaic.Lib.Pipeline.FrameBody
import Idealize.ShloMosaic.Lib.Ring
import Idealize.ShloMosaic.Lib.Tactic
import Idealize.ShloMosaic.Lib.Decide
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions over the grid -/

/-- The body's first conditional: the point is the grid's first. -/
abbrev condFirst (i : grid0.Coords) : Prop :=
  (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- The second conditional: the point is in the first pass. -/
abbrev condPass1 (i : grid0.Coords) : Prop := k0_cond2 i = 1#1
theorem hcondPass1 : ∀ t : Fin cfg0.N, condPass1 (grid0.coords t) ↔ t.val < 25 :=
  (by decide +kernel : ∀ t : Fin grid0.N, condPass1 (grid0.coords t) ↔ t.val < 25)

/-- The third conditional: the point is in the second pass. -/
abbrev condPass2 (i : grid0.Coords) : Prop := k0_cond3 i = 1#1
theorem hcondPass2 : ∀ t : Fin cfg0.N, condPass2 (grid0.coords t) ↔ 25 ≤ t.val :=
  (by decide +kernel : ∀ t : Fin grid0.N, condPass2 (grid0.coords t) ↔ 25 ≤ t.val)

/-! ## The row offsets -/

/-- In the first pass point t stores rows 400 t .. 400 t + 399 of the two row-blocked scratch buffers. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-- In the second pass point t reads rows 400 (t - 25) .. of the hidden layer. -/
theorem off2_eq : ∀ t : Fin cfg0.N, 25 ≤ t.val → k0_off2 (grid0.coords t) = ![400 * (t.val - 25), 0] :=
  (by decide +kernel : ∀ t : Fin grid0.N, 25 ≤ t.val → k0_off2 (grid0.coords t) = ![400 * (t.val - 25), 0])

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- In the first pass nothing is stored into the output window and its block is not written back. -/
theorem idleAt6 : ∀ t : Fin cfg0.N, t.val < 25 → cfg0.idle 6 (grid0.coords t) = true := by decide +kernel
theorem noFlush6 : ∀ t : Fin cfg0.N, t.val < 25 → (cfg0.win 6).flush t = false := by decide +kernel
/-- In the second pass the output window is stored whole at every point, and written back at every point. -/
theorem liveAt6 : ∀ t : Fin cfg0.N, 25 ≤ t.val → cfg0.idle 6 (grid0.coords t) = false := by decide +kernel
theorem flush6 : ∀ t : Fin cfg0.N, 25 ≤ t.val → (cfg0.win 6).flush t = true := by decide +kernel

/-! ## The memrefs the body is called with -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)
/-- The three scratch buffers: the first layer's support x W1, the hidden layer h, the second layer's support h W2. -/
abbrev scS1 : Memref sig .tc .vmem S10000x128 .bf16 := Memref.whole cc0_scratch0
abbrev scH : Memref sig .tc .vmem S10000x128 .f32 := Memref.whole cc0_scratch1
abbrev scS2 : Memref sig .tc .vmem S10000x128 .bf16 := Memref.whole cc0_scratch2

/-- The class invariant with the scratch buffers as memrefs owned at some contents. -/
theorem PhiA_eq (c : Dev nD) :
    (Pipeline.ΦA spec0 c : sProp 𝕄)
      = iprop(iprop((∃ d, owns (c : Thread nD τ) scS1 fullShare d) ∗ (∃ d, owns (c : Thread nD τ) scH fullShare d) ∗ (∃ d, owns (c : Thread nD τ) scS2 fullShare d)) ∗ (∃ r, prngReg c r)) := by
  unfold Pipeline.ΦA; rw [scopedRest0_eq]; simp only [scS1, scH, scS2, owns_whole]; try rfl

end Cert.Kernel.Body

end
-- ==== Proof.KBRunA.lean ====
/-
  The body at the grid's first point: it computes the first layer's support x W1 from the two resident operands and
  stores it whole, then does what every point of the first pass does, on rows 0 .. 399, reading the support it has
  just stored. Before this point the three scratch buffers hold anything.
-/
import proofs.«145158_g77695958385289_cont_9to1_m_732_18_alg».proof.Proof.KBCases
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl

set_option maxHeartbeats 1000000 in
/-- The pieces the three scratch buffers are written with at the first point, with the proof that the body runs:
    each buffer ends at what it held with the pieces written. -/
noncomputable def runFirst (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .f32) (harg9 : arg9.IsWhole) (arg10 : Memref sig .tc .vmem S10000x128 .bf16) (harg10 : arg10.IsWhole)
    (hc1 : condFirst i) (hc2 : condPass1 i) (hc3 : ¬condPass2 i)
    (x0 : Vec F S400x10000 .f32) (x1 : Vec F S10000x128 .f32) (x2 : Vec F S128x128 .f32) (x3 : Vec F S128x128 .f32) (x4 : Vec F S1x128 .f32)
    (d8 : Vec F S10000x128 .bf16) (d9 : Vec F S10000x128 .f32) (d10 : Vec F S10000x128 .bf16) :
    Σ' (L8 : List (View.Piece (Elt F) S10000x128 .bf16)) (L9 : List (View.Piece (Elt F) S10000x128 .f32)), { L10 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare d8 ∗ owns (c : Thread nD τ) arg9 fullShare d9 ∗ owns (c : Thread nD τ) arg10 fullShare d10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg8.view.loc (c : Thread nD τ) ↦[arg8.view.set]{fullShare} arg8.view.writes (Elt F) (harg8.unread d8) L8) ∗ (arg9.view.loc (c : Thread nD τ) ↦[arg9.view.set]{fullShare} arg9.view.writes (Elt F) (harg9.unread d9) L9) ∗ (arg10.view.loc (c : Thread nD τ) ↦[arg10.view.set]{fullShare} arg10.view.writes (Elt F) (harg10.unread d10) L10)) -∗ K ⟨⟩))
          ⊢ wp frame (wpE (defs₀ (F := F)) Variants.none c none) E (cc0__gcn2_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__gcn2_kernel_eq_skeleton]; unfold cc0__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2
    obtain rfl := harg4.eq_unread hf3; obtain rfl := harg5.eq_unread hf4
    obtain rfl := harg8.eq_unread hf8; obtain rfl := harg9.eq_unread hf9; obtain rfl := harg10.eq_unread hf10
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H8]
    · iexact H8
    isplitl [H9]
    · iexact H9
    iexact H10

/-- The pieces of the first point: the first support stored whole, then rows 0 .. 399 of the hidden layer and of the
    second support, both computed from the support just stored. -/
theorem runFirst_pieces (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .f32) (harg9 : arg9.IsWhole) (arg10 : Memref sig .tc .vmem S10000x128 .bf16) (harg10 : arg10.IsWhole)
    (hc1 : condFirst i) (hc2 : condPass1 i) (hc3 : ¬condPass2 i)
    (x0 : Vec F S400x10000 .f32) (x1 : Vec F S10000x128 .f32) (x2 : Vec F S128x128 .f32) (x3 : Vec F S128x128 .f32) (x4 : Vec F S1x128 .f32)
    (d8 : Vec F S10000x128 .bf16) (d9 : Vec F S10000x128 .f32) (d10 : Vec F S10000x128 .bf16) :
    (runFirst c i arg1 harg1 arg2 harg2 arg3 harg3 arg4 harg4 arg5 harg5 arg6 harg6 arg7 harg7 arg8 harg8 arg9 harg9 arg10 harg10 hc1 hc2 hc3 x0 x1 x2 x3 x4 d8 d9 d10).1
      = [⟨Rect.unit (s := S10000x128) ![0, 0] S10000x128.size inb_S10000x128_S10000x128_0_0, k0_pay1 x1 x2⟩]
    ∧ (runFirst c i arg1 harg1 arg2 harg2 arg3 harg3 arg4 harg4 arg5 harg5 arg6 harg6 arg7 harg7 arg8 harg8 arg9 harg9 arg10 harg10 hc1 hc2 hc3 x0 x1 x2 x3 x4 d8 d9 d10).2.1
      = [⟨Rect.unit (s := S10000x128) (k0_off1 i) S400x128.size (k0_off1_inb i hc2), k0_pay3 x0 (k0_pay1 x1 x2) x4⟩]
    ∧ (runFirst c i arg1 harg1 arg2 harg2 arg3 harg3 arg4 harg4 arg5 harg5 arg6 harg6 arg7 harg7 arg8 harg8 arg9 harg9 arg10 harg10 hc1 hc2 hc3 x0 x1 x2 x3 x4 d8 d9 d10).2.2.1
      = [⟨Rect.unit (s := S10000x128) (k0_off1 i) S400x128.size (k0_off1_inb i hc2), k0_pay4 x0 (k0_pay1 x1 x2) x4 x3⟩] := by
  unfold runFirst
  dsimp only
  unfold runFirst.sl.v21 runFirst.sl.H8_1
  simp only [View.readAt_eq_ld, harg1.read_unread, harg2.read_unread, harg3.read_unread, harg4.read_unread, harg5.read_unread,
    View.ld_unit_zero (S := S400x10000) zeros2, View.ld_unit_zero (S := S10000x128) zeros2, View.ld_unit_zero (S := S1x128) zeros2,
    View.ld_unit_zero (S := S128x128) zeros2, View.readCov_unit_zero (S := S10000x128) _ zeros2]
  exact ⟨trivial, trivial, trivial⟩

end Cert.Kernel.Body

end
-- ==== Proof.KBRunB.lean ====
/-
  The body at a point of the first pass after the first: it loads the adjacency block, the first layer's support and
  the first bias, stores the point's 400 rows of the hidden layer, then loads the second weight matrix and stores the
  same 400 rows of the second layer's support. The other rows of both buffers stay as the points before left them.
-/
import proofs.«145158_g77695958385289_cont_9to1_m_732_18_alg».proof.Proof.KBRunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the hidden layer's and the second support's buffers are written with at a later point of the first
    pass, with the proof that the body runs: each of the two buffers ends at its previous contents with the pieces written. -/
noncomputable def runPass1 (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .f32) (harg9 : arg9.IsWhole) (arg10 : Memref sig .tc .vmem S10000x128 .bf16) (harg10 : arg10.IsWhole)
    (hc1 : ¬condFirst i) (hc2 : condPass1 i) (hc3 : ¬condPass2 i)
    (x0 : Vec F S400x10000 .f32) (x3 : Vec F S128x128 .f32) (x4 : Vec F S1x128 .f32) (xs1 : Vec F S10000x128 .bf16)
    (xh : Vec F S10000x128 .f32) (xs2 : Vec F S10000x128 .bf16) :
    Σ' (L9 : List (View.Piece (Elt F) S10000x128 .f32)), { L10 : List (View.Piece (Elt F) S10000x128 .bf16) //
      ∀ (E : Set ℕ) (K : PUnit → sProp 𝕄),
        iprop(owns (c : Thread nD τ) arg1 fullShare x0 ∗ owns (c : Thread nD τ) arg4 fullShare x3 ∗ owns (c : Thread nD τ) arg5 fullShare x4 ∗ owns (c : Thread nD τ) arg8 fullShare xs1 ∗ owns (c : Thread nD τ) arg9 fullShare xh ∗ owns (c : Thread nD τ) arg10 fullShare xs2
            ∗ (iprop(owns (c : Thread nD τ) arg1 fullShare x0 ∗ owns (c : Thread nD τ) arg4 fullShare x3 ∗ owns (c : Thread nD τ) arg5 fullShare x4 ∗ owns (c : Thread nD τ) arg8 fullShare xs1 ∗ (arg9.view.loc (c : Thread nD τ) ↦[arg9.view.set]{fullShare} arg9.view.writes (Elt F) (harg9.unread xh) L9) ∗ (arg10.view.loc (c : Thread nD τ) ↦[arg10.view.set]{fullShare} arg10.view.writes (Elt F) (harg10.unread xs2) L10)) -∗ K ⟨⟩))
          ⊢ wp frame (wpE (defs₀ (F := F)) Variants.none c none) E (cc0__gcn2_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__gcn2_kernel_eq_skeleton]; unfold cc0__gcn2_kernel_skel
    unfold owns
    iintro ⟨⟨%f0, %hf0, H0⟩, ⟨%f3, %hf3, H3⟩, ⟨%f4, %hf4, H4⟩, ⟨%f8, %hf8, H8⟩, ⟨%f9, %hf9, H9⟩, ⟨%f10, %hf10, H10⟩, Hk⟩
    obtain rfl := harg1.eq_unread hf0; obtain rfl := harg4.eq_unread hf3; obtain rfl := harg5.eq_unread hf4
    obtain rfl := harg8.eq_unread hf8; obtain rfl := harg9.eq_unread hf9; obtain rfl := harg10.eq_unread hf10
    sl_exec (disch := first | exact hc1 | exact hc2 | exact hc3)
    sl_step
    iapply Hk
    isplitl [H0]
    · iexists _; isplitr; · ipureintro; exact harg1.read_unread _
      iexact H0
    isplitl [H3]
    · iexists _; isplitr; · ipureintro; exact harg4.read_unread _
      iexact H3
    isplitl [H4]
    · iexists _; isplitr; · ipureintro; exact harg5.read_unread _
      iexact H4
    isplitl [H8]
    · iexists _; isplitr; · ipureintro; exact harg8.read_unread _
      iexact H8
    isplitl [H9]
    · iexact H9
    iexact H10

/-- The pieces of a later point of the first pass: the point's 400 rows of the hidden layer at the payload of the
    adjacency block, the first support and the first bias, and the same rows of the second support at that payload
    multiplied by the second weight matrix. -/
theorem runPass1_pieces (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .f32) (harg9 : arg9.IsWhole) (arg10 : Memref sig .tc .vmem S10000x128 .bf16) (harg10 : arg10.IsWhole)
    (hc1 : ¬condFirst i) (hc2 : condPass1 i) (hc3 : ¬condPass2 i)
    (x0 : Vec F S400x10000 .f32) (x3 : Vec F S128x128 .f32) (x4 : Vec F S1x128 .f32) (xs1 : Vec F S10000x128 .bf16)
    (xh : Vec F S10000x128 .f32) (xs2 : Vec F S10000x128 .bf16) :
    (runPass1 c i arg1 harg1 arg2 harg2 arg3 harg3 arg4 harg4 arg5 harg5 arg6 harg6 arg7 harg7 arg8 harg8 arg9 harg9 arg10 harg10 hc1 hc2 hc3 x0 x3 x4 xs1 xh xs2).1
      = [⟨Rect.unit (s := S10000x128) (k0_off1 i) S400x128.size (k0_off1_inb i hc2), k0_pay3 x0 xs1 x4⟩]
    ∧ (runPass1 c i arg1 harg1 arg2 harg2 arg3 harg3 arg4 harg4 arg5 harg5 arg6 harg6 arg7 harg7 arg8 harg8 arg9 harg9 arg10 harg10 hc1 hc2 hc3 x0 x3 x4 xs1 xh xs2).2.1
      = [⟨Rect.unit (s := S10000x128) (k0_off1 i) S400x128.size (k0_off1_inb i hc2), k0_pay4 x0 xs1 x4 x3⟩] := by
  unfold runPass1
  dsimp only
  simp only [View.readAt_eq_ld, harg1.read_unread, harg4.read_unread, harg5.read_unread, harg8.read_unread,
    View.ld_unit_zero (S := S400x10000) zeros2, View.ld_unit_zero (S := S10000x128) zeros2, View.ld_unit_zero (S := S1x128) zeros2,
    View.ld_unit_zero (S := S128x128) zeros2]
  exact ⟨trivial, trivial⟩

end Cert.Kernel.Body

end
-- ==== Proof.KBRunC.lean ====
/-
  The body at a point of the second pass: it loads the adjacency block, the second layer's support, the second bias
  and the point's 400 rows of the hidden layer, and stores the output block whole. The scratch buffers are read only.
-/
import proofs.«145158_g77695958385289_cont_9to1_m_732_18_alg».proof.Proof.KBRunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the output's staging buffer ends with at a point of the second pass, with the proof that on whole
    memrefs at the stated contents the body runs and hands everything it read back unchanged. -/
noncomputable def runPass2 (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .f32) (harg9 : arg9.IsWhole) (arg10 : Memref sig .tc .vmem S10000x128 .bf16) (harg10 : arg10.IsWhole)
    (hc1 : ¬condFirst i) (hc2 : ¬condPass1 i) (hc3 : condPass2 i)
    (x0 : Vec F S400x10000 .f32) (x5 : Vec F S1x128 .f32) (xh : Vec F S10000x128 .f32) (xs2 : Vec F S10000x128 .bf16) :
    { L7 : List (View.Piece (Elt F) S400x128 .f32) //
      ∀ (d7 : Vec F S400x128 .f32) (E : Set ℕ) (K : PUnit → sProp 𝕄),
        iprop(owns (c : Thread nD τ) arg1 fullShare x0 ∗ owns (c : Thread nD τ) arg6 fullShare x5 ∗ owns (c : Thread nD τ) arg7 fullShare d7 ∗ owns (c : Thread nD τ) arg9 fullShare xh ∗ owns (c : Thread nD τ) arg10 fullShare xs2
            ∗ (iprop(owns (c : Thread nD τ) arg1 fullShare x0 ∗ owns (c : Thread nD τ) arg6 fullShare x5 ∗ (∃ f, arg7.view.loc (c : Thread nD τ) ↦[arg7.view.set]{fullShare} arg7.view.writes (Elt F) f L7) ∗ owns (c : Thread nD τ) arg9 fullShare xh ∗ owns (c : Thread nD τ) arg10 fullShare xs2) -∗ K ⟨⟩))
          ⊢ wp frame (wpE (defs₀ (F := F)) Variants.none c none) E (cc0__gcn2_kernel i arg1 harg1 arg2 harg2 arg3 harg3 arg4 harg4 arg5 harg5 arg6 harg6 arg7 harg7 arg8 harg8 arg9 harg9 arg10 harg10) K } := by
  refine ⟨?_, fun d7 E K => ?run⟩
  case run =>
    simp only [cc0__gcn2_kernel_eq_skeleton]; unfold cc0__gcn2_kernel_skel
    unfold owns
    iintro ⟨⟨%f0, %hf0, H0⟩, ⟨%f5, %hf5, H5⟩, ⟨%f7, %hf7, H7⟩, ⟨%f9, %hf9, H9⟩, ⟨%f10, %hf10, H10⟩, Hk⟩
    obtain rfl := harg1.eq_unread hf0; obtain rfl := harg6.eq_unread hf5; obtain rfl := harg7.eq_unread hf7
    obtain rfl := harg9.eq_unread hf9; obtain rfl := harg10.eq_unread hf10
    sl_exec (disch := first | exact hc1 | exact hc2 | exact hc3)
    sl_step
    iapply Hk
    isplitl [H0]
    · iexists _; isplitr; · ipureintro; exact harg1.read_unread _
      iexact H0
    isplitl [H5]
    · iexists _; isplitr; · ipureintro; exact harg6.read_unread _
      iexact H5
    isplitl [H7]
    · iexists _; iexact H7
    isplitl [H9]
    · iexists _; isplitr; · ipureintro; exact harg9.read_unread _
      iexact H9
    iexists _; isplitr; · ipureintro; exact harg10.read_unread _
    iexact H10

/-- The one piece the output's buffer is written with in the second pass: the whole block, at the last payload of the
    adjacency block, the second support, the second bias and the point's rows of the hidden layer. -/
theorem runPass2_pieces (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .f32) (harg9 : arg9.IsWhole) (arg10 : Memref sig .tc .vmem S10000x128 .bf16) (harg10 : arg10.IsWhole)
    (hc1 : ¬condFirst i) (hc2 : ¬condPass1 i) (hc3 : condPass2 i)
    (x0 : Vec F S400x10000 .f32) (x5 : Vec F S1x128 .f32) (xh : Vec F S10000x128 .f32) (xs2 : Vec F S10000x128 .bf16) :
    (runPass2 c i arg1 harg1 arg2 harg2 arg3 harg3 arg4 harg4 arg5 harg5 arg6 harg6 arg7 harg7 arg8 harg8 arg9 harg9 arg10 harg10 hc1 hc2 hc3 x0 x5 xh xs2).1
      = [⟨Rect.unit (s := S400x128) ![0, 0] S400x128.size inb_S400x128_S400x128_0_0,
          k0_pay5 x0 xs2 x5 (View.ld xh (Rect.unit (s := S10000x128) (k0_off2 i) S400x128.size (k0_off2_inb i hc3)))⟩] := by
  unfold runPass2
  dsimp only
  simp only [View.readAt_eq_ld, harg1.read_unread, harg6.read_unread, harg9.read_unread, harg10.read_unread,
    View.ld_unit_zero (S := S400x10000) zeros2, View.ld_unit_zero (S := S10000x128) zeros2, View.ld_unit_zero (S := S1x128) zeros2]

end Cert.Kernel.Body

end
-- ==== Proof.KBBody.lean ====
/-
  What the kernel leaves behind, point by point, and the run.

  The grid makes two passes of 25 points over the 400-row blocks of the adjacency matrix A. With X the node features,
  the first point computes S1 = X W1 into a scratch buffer; point t of the first pass computes rows 400 t .. 400 t + 399 of
  H = max(A S1 + b1, 0) and of S2 = H W2 into two more scratch buffers; point 25 + t of the second pass stores rows
  400 t .. of max(A S2 + b2, 0) + H into the output window, which is written back at every point of that pass.
  So after point n of the first pass the two row-blocked buffers hold their final values on rows below 400 (n + 1)
  and, on the other rows, whatever they held before the kernel started: contents the invariant does not name but carries
  unchanged. From point 24 on all three buffers hold S1, H and S2 whole.
-/
import proofs.«145158_g77695958385289_cont_9to1_m_732_18_alg».proof.Proof.KBRunC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- The grid's first point. -/
def t0 : Fin cfg0.N := ⟨0, by rw [N50]; decide⟩

/-! ## The three scratch buffers' final contents -/

/-- The first layer's support, as the first point stores it: the matrix product of the two resident operands. -/
def s1 (c : Dev nD) : Vec F S10000x128 .bf16 := k0_pay1 (iblk m c 1 t0) (iblk m c 2 t0)

/-- The point of the first pass that works on row r: r / 400. -/
def rowPt (y : S10000x128.Idx) : Fin cfg0.N :=
  ⟨(y 0).val / 400, by rw [N50]; have h : (y 0).val < 10000 := (y 0).isLt; omega⟩

theorem rowPt_bounds (y : S10000x128.Idx) : 400 * (rowPt y).val ≤ (y 0).val ∧ (y 0).val < 400 * (rowPt y).val + 400 := by
  show 400 * ((y 0).val / 400) ≤ (y 0).val ∧ (y 0).val < 400 * ((y 0).val / 400) + 400
  omega

/-- The hidden layer: row r is row r mod 400 of what the point r / 400 computes from its adjacency block, the first
    support and the first bias. -/
def hFull (c : Dev nD) : Vec F S10000x128 .f32 := fun y =>
  k0_pay3 (iblk m c 0 (rowPt y)) (s1 m c) (iblk m c 4 (rowPt y)) (Rect.unitLocal (s := S10000x128) (off := ![400 * (rowPt y).val, 0]) (size := S400x128.size) y (Rect.unit_rows_mem y rfl rfl (rowPt_bounds y)))

/-- The second layer's support: the same rows multiplied by the second weight matrix. -/
def s2Full (c : Dev nD) : Vec F S10000x128 .bf16 := fun y =>
  k0_pay4 (iblk m c 0 (rowPt y)) (s1 m c) (iblk m c 4 (rowPt y)) (iblk m c 3 (rowPt y)) (Rect.unitLocal (s := S10000x128) (off := ![400 * (rowPt y).val, 0]) (size := S400x128.size) y (Rect.unit_rows_mem y rfl rfl (rowPt_bounds y)))

/-- On the rows of block t the hidden layer is what point t computes. -/
theorem hFull_at (c : Dev nD) (t : Fin cfg0.N) (y : S10000x128.Idx)
    (h : 400 * t.val ≤ (y 0).val ∧ (y 0).val < 400 * t.val + 400) :
    hFull m c y = k0_pay3 (iblk m c 0 t) (s1 m c) (iblk m c 4 t) (Rect.unitLocal (s := S10000x128) (off := ![400 * t.val, 0]) (size := S400x128.size) y (Rect.unit_rows_mem y rfl rfl h)) := by
  obtain rfl : t = rowPt y := Fin.ext (by show t.val = (y 0).val / 400; omega)
  rfl

theorem s2Full_at (c : Dev nD) (t : Fin cfg0.N) (y : S10000x128.Idx)
    (h : 400 * t.val ≤ (y 0).val ∧ (y 0).val < 400 * t.val + 400) :
    s2Full m c y = k0_pay4 (iblk m c 0 t) (s1 m c) (iblk m c 4 t) (iblk m c 3 t) (Rect.unitLocal (s := S10000x128) (off := ![400 * t.val, 0]) (size := S400x128.size) y (Rect.unit_rows_mem y rfl rfl h)) := by
  obtain rfl : t = rowPt y := Fin.ext (by show t.val = (y 0).val / 400; omega)
  rfl

/-- After point n: the final rows below 400 (n + 1), the unnamed contents J elsewhere. -/
def mixH (c : Dev nD) (n : ℕ) (J : Vec F S10000x128 .f32) : Vec F S10000x128 .f32 :=
  fun y => if (y 0).val < 400 * (n + 1) then hFull m c y else J y
def mixS2 (c : Dev nD) (n : ℕ) (J : Vec F S10000x128 .bf16) : Vec F S10000x128 .bf16 :=
  fun y => if (y 0).val < 400 * (n + 1) then s2Full m c y else J y

theorem mixH_full (c : Dev nD) (n : ℕ) (hn : 24 ≤ n) (J : Vec F S10000x128 .f32) : mixH m c n J = hFull m c := by
  funext y; unfold mixH; have h : (y 0).val < 10000 := (y 0).isLt; rw [if_pos (by omega)]
theorem mixS2_full (c : Dev nD) (n : ℕ) (hn : 24 ≤ n) (J : Vec F S10000x128 .bf16) : mixS2 m c n J = s2Full m c := by
  funext y; unfold mixS2; have h : (y 0).val < 10000 := (y 0).isLt; rw [if_pos (by omega)]

/-- One store of 400 whole rows at row o, read back at an index: the payload on those rows, the old contents elsewhere. -/
theorem read_store_rows {e : EltTy} (v : View sig .tc .vmem S10000x128 e) (f : v.ty.Contents (Elt F)) {off : Fin 2 → ℕ}
    (inb : ∀ a : Fin 2, off a + S400x128.size a ≤ S10000x128.size a)
    (P : (Rect.unit (s := S10000x128) off S400x128.size inb).shape.Idx → Elt F e) (o : ℕ) (hoff : off = ![o, 0]) (y : S10000x128.Idx) :
    v.read (Elt F) (v.writes (Elt F) f [⟨Rect.unit (s := S10000x128) off S400x128.size inb, P⟩]) y
      = if h : o ≤ (y 0).val ∧ (y 0).val < o + 400 then P (Rect.unitLocal (s := S10000x128) (off := ![o, 0]) (size := S400x128.size) y (Rect.unit_rows_mem y rfl rfl h)) else v.read (Elt F) f y := by
  rw [View.read_writes_cons_rows v f inb P [] y hoff rfl rfl]; rfl

/-- Point t of the first pass takes the hidden layer's buffer from its state after point t - 1 (at the first point:
    from the unnamed contents) to its state after point t. -/
theorem mixH_step (c : Dev nD) (t : Fin cfg0.N) (J prev : Vec F S10000x128 .f32)
    (hprev : ∀ y : S10000x128.Idx, ¬(400 * t.val ≤ (y 0).val ∧ (y 0).val < 400 * t.val + 400) → prev y = mixH m c t.val J y)
    (y : S10000x128.Idx) :
    (if h : 400 * t.val ≤ (y 0).val ∧ (y 0).val < 400 * t.val + 400 then
        k0_pay3 (iblk m c 0 t) (s1 m c) (iblk m c 4 t) (Rect.unitLocal (s := S10000x128) (off := ![400 * t.val, 0]) (size := S400x128.size) y (Rect.unit_rows_mem y rfl rfl h))
      else prev y) = mixH m c t.val J y := by
  by_cases h : 400 * t.val ≤ (y 0).val ∧ (y 0).val < 400 * t.val + 400
  · rw [dif_pos h]; unfold mixH; rw [if_pos (by omega)]; exact (hFull_at m c t y h).symm
  · rw [dif_neg h]; exact hprev y h

theorem mixS2_step (c : Dev nD) (t : Fin cfg0.N) (J prev : Vec F S10000x128 .bf16)
    (hprev : ∀ y : S10000x128.Idx, ¬(400 * t.val ≤ (y 0).val ∧ (y 0).val < 400 * t.val + 400) → prev y = mixS2 m c t.val J y)
    (y : S10000x128.Idx) :
    (if h : 400 * t.val ≤ (y 0).val ∧ (y 0).val < 400 * t.val + 400 then
        k0_pay4 (iblk m c 0 t) (s1 m c) (iblk m c 4 t) (iblk m c 3 t) (Rect.unitLocal (s := S10000x128) (off := ![400 * t.val, 0]) (size := S400x128.size) y (Rect.unit_rows_mem y rfl rfl h))
      else prev y) = mixS2 m c t.val J y := by
  by_cases h : 400 * t.val ≤ (y 0).val ∧ (y 0).val < 400 * t.val + 400
  · rw [dif_pos h]; unfold mixS2; rw [if_pos (by omega)]; exact (s2Full_at m c t y h).symm
  · rw [dif_neg h]; exact hprev y h

/-- Outside block 0 the state after the first point is the unnamed contents. -/
theorem mixH_zero_out (c : Dev nD) (t : Fin cfg0.N) (hz : t.val = 0) (J : Vec F S10000x128 .f32) (y : S10000x128.Idx)
    (h : ¬(400 * t.val ≤ (y 0).val ∧ (y 0).val < 400 * t.val + 400)) : J y = mixH m c t.val J y := by
  unfold mixH; rw [if_neg (by omega)]
theorem mixS2_zero_out (c : Dev nD) (t : Fin cfg0.N) (hz : t.val = 0) (J : Vec F S10000x128 .bf16) (y : S10000x128.Idx)
    (h : ¬(400 * t.val ≤ (y 0).val ∧ (y 0).val < 400 * t.val + 400)) : J y = mixS2 m c t.val J y := by
  unfold mixS2; rw [if_neg (by omega)]
/-- Outside block t the state after point t is the state after point t - 1. -/
theorem mixH_pos_out (c : Dev nD) (t : Fin cfg0.N) (hz : t.val ≠ 0) (J : Vec F S10000x128 .f32) (y : S10000x128.Idx)
    (h : ¬(400 * t.val ≤ (y 0).val ∧ (y 0).val < 400 * t.val + 400)) : mixH m c (t.val - 1) J y = mixH m c t.val J y := by
  unfold mixH
  by_cases h1 : (y 0).val < 400 * (t.val - 1 + 1)
  · rw [if_pos h1, if_pos (by omega)]
  · rw [if_neg h1, if_neg (by omega)]
theorem mixS2_pos_out (c : Dev nD) (t : Fin cfg0.N) (hz : t.val ≠ 0) (J : Vec F S10000x128 .bf16) (y : S10000x128.Idx)
    (h : ¬(400 * t.val ≤ (y 0).val ∧ (y 0).val < 400 * t.val + 400)) : mixS2 m c (t.val - 1) J y = mixS2 m c t.val J y := by
  unfold mixS2
  by_cases h1 : (y 0).val < 400 * (t.val - 1 + 1)
  · rw [if_pos h1, if_pos (by omega)]
  · rw [if_neg h1, if_neg (by omega)]

/-! ## The output block -/

/-- What a point of the second pass stores into the output window: the last payload of its adjacency block, the second
    support, the second bias and its 400 rows of the hidden layer. In the first pass the window is idle. -/
def outAt (c : Dev nD) (t : Fin cfg0.N) : Vec F S400x128 .f32 :=
  if h : 25 ≤ t.val then
    k0_pay5 (iblk m c 0 t) (s2Full m c) (iblk m c 5 t)
      (View.ld (hFull m c) (Rect.unit (s := S10000x128) (k0_off2 (grid0.coords t)) S400x128.size (k0_off2_inb (grid0.coords t) ((hcondPass2 t).mpr h))))
  else fun _ => Classical.choice (Elt.nonempty F _)

/-! ## The invariant -/

/-- Before point n: at the start the class invariant (the scratch at anything); afterwards the first support whole and the
    two row-blocked buffers at their state after point n - 1, over contents not named. -/
def PhiS (c : Dev nD) : (n : ℕ) → n ≤ cfg0.N → sProp 𝕄
  | 0, _ => Pipeline.ΦA spec0 c
  | n + 1, _ => iprop(iprop(∃ J9, ∃ J10, owns (c : Thread nD τ) scS1 fullShare (s1 m c) ∗ owns (c : Thread nD τ) scH fullShare (mixH m c n J9) ∗ owns (c : Thread nD τ) scS2 fullShare (mixS2 m c n J10)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(∃ J9, ∃ J10, owns (c : Thread nD τ) scS1 fullShare (s1 m c) ∗ owns (c : Thread nD τ) scH fullShare (mixH m c n J9) ∗ owns (c : Thread nD τ) scS2 fullShare (mixS2 m c n J10)) ∗ (∃ r, prngReg c r)) := rfl

theorem PhiS_pos (c : Dev nD) (n : ℕ) (h : n ≤ cfg0.N) (hz : n ≠ 0) :
    PhiS m c n h = iprop(iprop(∃ J9, ∃ J10, owns (c : Thread nD τ) scS1 fullShare (s1 m c) ∗ owns (c : Thread nD τ) scH fullShare (mixH m c (n - 1) J9) ∗ owns (c : Thread nD τ) scS2 fullShare (mixS2 m c (n - 1) J10)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The stores read back -/

/-- The first support after its one whole store. -/
theorem S1_store (hw : scS1.IsWhole) (d8 : Vec F S10000x128 .bf16) (w : Vec F S10000x128 .bf16) :
    scS1.view.read (Elt F) (scS1.view.writes (Elt F) (hw.unread d8)
      [⟨Rect.unit (s := S10000x128) ![0, 0] S10000x128.size inb_S10000x128_S10000x128_0_0, w⟩]) = w :=
  (View.read_writes_eq_canon _ _ _ (fun y => ⟨_, List.mem_singleton_self _, View.mem_set_unit_zero zeros2 inb_S10000x128_S10000x128_0_0 y⟩)).trans
    (View.canon_unit_zero zeros2 _ _)

/-- The hidden layer's buffer after point t of the first pass stored its rows over the state prev. -/
theorem H_store (c : Dev nD) (t : Fin cfg0.N) (ht : t.val < 25) (J prev : Vec F S10000x128 .f32)
    (hprev : ∀ y : S10000x128.Idx, ¬(400 * t.val ≤ (y 0).val ∧ (y 0).val < 400 * t.val + 400) → prev y = mixH m c t.val J y)
    (hw : scH.IsWhole) (inb : ∀ a : Fin 2, k0_off1 (grid0.coords t) a + S400x128.size a ≤ S10000x128.size a) :
    scH.view.read (Elt F) (scH.view.writes (Elt F) (hw.unread prev)
      [⟨Rect.unit (s := S10000x128) (k0_off1 (grid0.coords t)) S400x128.size inb, k0_pay3 (iblk m c 0 t) (s1 m c) (iblk m c 4 t)⟩])
      = mixH m c t.val J := by
  funext y
  rw [read_store_rows _ _ _ _ (400 * t.val) (off1_eq t ht) y, hw.read_unread]
  exact mixH_step m c t J prev hprev y

theorem S2_store (c : Dev nD) (t : Fin cfg0.N) (ht : t.val < 25) (J prev : Vec F S10000x128 .bf16)
    (hprev : ∀ y : S10000x128.Idx, ¬(400 * t.val ≤ (y 0).val ∧ (y 0).val < 400 * t.val + 400) → prev y = mixS2 m c t.val J y)
    (hw : scS2.IsWhole) (inb : ∀ a : Fin 2, k0_off1 (grid0.coords t) a + S400x128.size a ≤ S10000x128.size a) :
    scS2.view.read (Elt F) (scS2.view.writes (Elt F) (hw.unread prev)
      [⟨Rect.unit (s := S10000x128) (k0_off1 (grid0.coords t)) S400x128.size inb, k0_pay4 (iblk m c 0 t) (s1 m c) (iblk m c 4 t) (iblk m c 3 t)⟩])
      = mixS2 m c t.val J := by
  funext y
  rw [read_store_rows _ _ _ _ (400 * t.val) (off1_eq t ht) y, hw.read_unread]
  exact mixS2_step m c t J prev hprev y

/-- The output block after its one whole store, whatever the buffer held. -/
theorem out_store (v : View sig .tc .vmem S400x128 .f32) (f : v.ty.Contents (Elt F)) (w : Vec F S400x128 .f32) :
    v.read (Elt F) (v.writes (Elt F) f
      [⟨Rect.unit (s := S400x128) ![0, 0] S400x128.size inb_S400x128_S400x128_0_0, w⟩]) = w :=
  (View.read_writes_eq_canon _ _ _ (fun y => ⟨_, List.mem_singleton_self _, View.mem_set_unit_zero zeros2 inb_S400x128_S400x128_0_0 y⟩)).trans
    (View.canon_unit_zero zeros2 _ _)

/-! ## The body obligation, at a generic point -/

theorem leavesIn0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [liveAt0 t], after0]
theorem leavesIn1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [liveAt1 t], after1]
theorem leavesIn2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [liveAt2 t], after2]
theorem leavesIn3 (c : Dev nD) (t : Fin cfg0.N) :
    (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [liveAt3 t], after3]
theorem leavesIn4 (c : Dev nD) (t : Fin cfg0.N) :
    (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [liveAt4 t], after4]
theorem leavesIn5 (c : Dev nD) (t : Fin cfg0.N) :
    (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [liveAt5 t], after5]
theorem leavesOut (c : Dev nD) (t : Fin cfg0.N) (h : 25 ≤ t.val) :
    (dats m 0 c).leavesExact 6 t = owns (c : Thread nD τ) (ms6 t) fullShare ((dats m 0 c).after 6 t) := by
  unfold Dat.leavesExact; rw [liveAt6 t h]

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' memrefs hold their blocks; the point's position says which of the three cases it is in;
    the invariant hands the body the scratch buffers at their state after the point before (at anything, at the first
    point) and takes them back at their state after this one; in the first pass the output window is handed back as
    found, in the second it ends at the stored block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5]
  have hN : t.val < 50 := lt_of_lt_of_eq t.isLt N50
  by_cases h25 : t.val < 25
  · rw [Dat.leavesExact_idle (dats m 0 c) 6 t (idleAt6 t h25) (noFlush6 t h25)]
    by_cases hz : t.val = 0
    · obtain rfl : t = t0 := Fin.ext hz
      have hp := runFirst_pieces (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) scS1 (Memref.isWhole_whole _) scH (Memref.isWhole_whole _) scS2 (Memref.isWhole_whole _)
        ((hcondFirst t0).mpr hz) ((hcondPass1 t0).mpr h25) (fun h => by have := (hcondPass2 t0).mp h; omega)
        (iblk m c 0 t0) (iblk m c 1 t0) (iblk m c 2 t0) (iblk m c 3 t0) (iblk m c 4 t0)
      rw [PhiS_castSucc m c t0, PhiS_zero m c _ _ hz, PhiA_eq]
      iintro ⟨⟨⟨⟨%d8, HS8⟩, ⟨%d9, HS9⟩, ⟨%d10, HS10⟩⟩, Hg⟩, Ho, ⟨%e0, H0⟩, ⟨%e1, H1⟩, ⟨%e2, H2⟩, ⟨%e3, H3⟩, ⟨%e4, H4⟩, ⟨%e5, H5⟩, ⟨%e6, H6⟩⟩
      iapply ((runFirst c (grid0.coords t0) _ _ _ _ _ _ _ _ _ _ _ _ _ _ _ _ _ _ _ _
        ((hcondFirst t0).mpr hz) ((hcondPass1 t0).mpr h25) (fun h => by have := (hcondPass2 t0).mp h; omega)
        (iblk m c 0 t0) (iblk m c 1 t0) (iblk m c 2 t0) (iblk m c 3 t0) (iblk m c 4 t0) d8 d9 d10).2.2.2 Set.univ _)
      isplitl [H0]; · iexact H0
      isplitl [H1]; · iexact H1
      isplitl [H2]; · iexact H2
      isplitl [H3]; · iexact H3
      isplitl [H4]; · iexact H4
      isplitl [HS8]; · iexact HS8
      isplitl [HS9]; · iexact HS9
      isplitl [HS10]; · iexact HS10
      iintro ⟨H0, H1, H2, H3, H4, HS8, HS9, HS10⟩
      isplitl [HS8 HS9 HS10 Hg]
      · isplitl [HS8 HS9 HS10]
        · iexists d9; iexists d10
          isplitl [HS8]
          · unfold owns; iexists _; isplitr
            swap; · iexact HS8
            ipureintro
            rw [(hp d8 d9 d10).1]; exact S1_store _ d8 _
          isplitl [HS9]
          · unfold owns; iexists _; isplitr
            swap; · iexact HS9
            ipureintro
            rw [(hp d8 d9 d10).2.1]; exact H_store m c t0 h25 d9 d9 (mixH_zero_out m c t0 hz d9) _ _
          · unfold owns; iexists _; isplitr
            swap; · iexact HS10
            ipureintro
            rw [(hp d8 d9 d10).2.2]; exact S2_store m c t0 h25 d10 d10 (mixS2_zero_out m c t0 hz d10) _ _
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists e6; iexact H6
    · have hp := runPass1_pieces (F := F) c (grid0.coords t) (ms0 t) (hs0 t) (ms1 t) (hs1 t) (ms2 t) (hs2 t) (ms3 t) (hs3 t) (ms4 t) (hs4 t) (ms5 t) (hs5 t) (ms6 t) (hs6 t) scS1 (Memref.isWhole_whole _) scH (Memref.isWhole_whole _) scS2 (Memref.isWhole_whole _)
        (fun h => hz ((hcondFirst t).mp h)) ((hcondPass1 t).mpr h25) (fun h => by have := (hcondPass2 t).mp h; omega)
        (iblk m c 0 t) (iblk m c 3 t) (iblk m c 4 t) (s1 m c)
      rw [PhiS_castSucc m c t, PhiS_pos m c _ _ hz]
      iintro ⟨⟨⟨%J9, %J10, HS8, HS9, HS10⟩, Hg⟩, Ho, ⟨%e0, H0⟩, ⟨%e1, H1⟩, ⟨%e2, H2⟩, ⟨%e3, H3⟩, ⟨%e4, H4⟩, ⟨%e5, H5⟩, ⟨%e6, H6⟩⟩
      iapply ((runPass1 c (grid0.coords t) _ _ _ _ _ _ _ _ _ _ _ _ _ _ _ _ _ _ _ _
        (fun h => hz ((hcondFirst t).mp h)) ((hcondPass1 t).mpr h25) (fun h => by have := (hcondPass2 t).mp h; omega)
        (iblk m c 0 t) (iblk m c 3 t) (iblk m c 4 t) (s1 m c) (mixH m c (t.val - 1) J9) (mixS2 m c (t.val - 1) J10)).2.2 Set.univ _)
      isplitl [H0]; · iexact H0
      isplitl [H3]; · iexact H3
      isplitl [H4]; · iexact H4
      isplitl [HS8]; · iexact HS8
      isplitl [HS9]; · iexact HS9
      isplitl [HS10]; · iexact HS10
      iintro ⟨H0, H3, H4, HS8, HS9, HS10⟩
      isplitl [HS8 HS9 HS10 Hg]
      · isplitl [HS8 HS9 HS10]
        · iexists J9; iexists J10
          isplitl [HS8]; · iexact HS8
          isplitl [HS9]
          · unfold owns; iexists _; isplitr
            swap; · iexact HS9
            ipureintro
            rw [(hp (mixH m c (t.val - 1) J9) (mixS2 m c (t.val - 1) J10)).1]; exact H_store m c t h25 J9 _ (mixH_pos_out m c t hz J9) _ _
          · unfold owns; iexists _; isplitr
            swap; · iexact HS10
            ipureintro
            rw [(hp (mixH m c (t.val - 1) J9) (mixS2 m c (t.val - 1) J10)).2]; exact S2_store m c t h25 J10 _ (mixS2_pos_out m c t hz J10) _ _
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists e6; iexact H6
  · have h25' : 25 ≤ t.val := by omega
    rw [leavesOut m c t h25', after6]
    unfold outAt; rw [dif_pos h25']
    rw [PhiS_castSucc m c t, PhiS_pos m c _ _ (by omega)]
    simp only [mixH_full m c (t.val - 1) (by omega), mixS2_full m c (t.val - 1) (by omega), mixH_full m c t.val (by omega), mixS2_full m c t.val (by omega)]
    iintro ⟨⟨⟨%J9, %J10, HS8, HS9, HS10⟩, Hg⟩, Ho, ⟨%e0, H0⟩, ⟨%e1, H1⟩, ⟨%e2, H2⟩, ⟨%e3, H3⟩, ⟨%e4, H4⟩, ⟨%e5, H5⟩, ⟨%e6, H6⟩⟩
    iapply ((runPass2 c (grid0.coords t) _ _ _ _ _ _ _ _ _ _ _ _ _ _ _ _ _ _ _ _
      (fun h => by have := (hcondFirst t).mp h; omega) (fun h => by have := (hcondPass1 t).mp h; omega) ((hcondPass2 t).mpr h25')
      (iblk m c 0 t) (iblk m c 5 t) (hFull m c) (s2Full m c)).2 _ Set.univ _)
    isplitl [H0]; · iexact H0
    isplitl [H5]; · iexact H5
    isplitl [H6]; · iexact H6
    isplitl [HS9]; · iexact HS9
    isplitl [HS10]; · iexact HS10
    iintro ⟨H0, H5, ⟨%f7, H6⟩, HS9, HS10⟩
    isplitl [HS8 HS9 HS10 Hg]
    · isplitl [HS8 HS9 HS10]
      · iexists J9; iexists J10
        isplitl [HS8]; · iexact HS8
        isplitl [HS9]; · iexact HS9
        iexact HS10
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    rw [runPass2_pieces]; exact out_store _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class invariant back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨%J9, %J10, HS8, HS9, HS10⟩, Hg⟩
  isplitl [HS8 HS9 HS10]
  · isplitl [HS8]; · iexists _; iexact HS8
    isplitl [HS9]; · iexists _; iexact HS9
    iexists _; iexact HS10
  iexact Hg

theorem hout (c : Dev nD) : (dats m 0 c).Φ (Fin.last cfg0.N) ⊢ Pipeline.ΦA spec0 c :=
  Phi_out m c _ (by rw [Fin.val_last]; have : cfg0.N = 50 := N_0; omega)

/-! ## The run and the frame -/

set_option backward.isDefEq.respectTransparency.types false in
/-- Every weakly fair execution of the program terminates, and every final state has each array of the pipeline at what
    the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, faults nowhere and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KICases.lean ====
/-
  The grid of the one kernel has 50 points in two passes of 25 over the row blocks of the adjacency matrix.
  Here: the three branch conditions of the body in closed form over the grid (the first point; the first pass,
  points 0..24; the second pass, points 25..49), the row offset 400 * (t mod 25) of the block a point works on,
  where the output window is idle and not written back (the whole first pass), the memrefs the body is called
  with, and the region invariant with the three scratch buffers named.
-/
import proofs.«145158_g77695958385289_cont_9to1_m_732_18_alg».proof.Proof.Gen.KernelIdeal.Frame
import proofs.«145158_g77695958385289_cont_9to1_m_732_18_alg».proof.Proof.Gen.KernelIdeal.Skeleton
import Idealize.ShloMosaic.Lib.Pipeline.FrameBody
import Idealize.ShloMosaic.Lib.Ring
import Idealize.ShloMosaic.Lib.Tactic
import Idealize.ShloMosaic.Lib.Decide
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions over the grid -/

/-- The body's first conditional: the point is the grid's first. -/
abbrev condFirst (i : grid0.Coords) : Prop :=
  (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- The second conditional: the point is in the first pass. -/
abbrev condPass1 (i : grid0.Coords) : Prop := k0_cond2 i = 1#1
theorem hcondPass1 : ∀ t : Fin cfg0.N, condPass1 (grid0.coords t) ↔ t.val < 25 :=
  (by decide +kernel : ∀ t : Fin grid0.N, condPass1 (grid0.coords t) ↔ t.val < 25)

/-- The third conditional: the point is in the second pass. -/
abbrev condPass2 (i : grid0.Coords) : Prop := k0_cond3 i = 1#1
theorem hcondPass2 : ∀ t : Fin cfg0.N, condPass2 (grid0.coords t) ↔ 25 ≤ t.val :=
  (by decide +kernel : ∀ t : Fin grid0.N, condPass2 (grid0.coords t) ↔ 25 ≤ t.val)

/-! ## The row offsets -/

/-- In the first pass point t stores rows 400 t .. 400 t + 399 of the two row-blocked scratch buffers. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-- In the second pass point t reads rows 400 (t - 25) .. of the hidden layer. -/
theorem off2_eq : ∀ t : Fin cfg0.N, 25 ≤ t.val → k0_off2 (grid0.coords t) = ![400 * (t.val - 25), 0] :=
  (by decide +kernel : ∀ t : Fin grid0.N, 25 ≤ t.val → k0_off2 (grid0.coords t) = ![400 * (t.val - 25), 0])

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- In the first pass nothing is stored into the output window and its block is not written back. -/
theorem idleAt6 : ∀ t : Fin cfg0.N, t.val < 25 → cfg0.idle 6 (grid0.coords t) = true := by decide +kernel
theorem noFlush6 : ∀ t : Fin cfg0.N, t.val < 25 → (cfg0.win 6).flush t = false := by decide +kernel
/-- In the second pass the output window is stored whole at every point, and written back at every point. -/
theorem liveAt6 : ∀ t : Fin cfg0.N, 25 ≤ t.val → cfg0.idle 6 (grid0.coords t) = false := by decide +kernel
theorem flush6 : ∀ t : Fin cfg0.N, 25 ≤ t.val → (cfg0.win 6).flush t = true := by decide +kernel

/-! ## The memrefs the body is called with -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)
/-- The three scratch buffers: the first layer's support x W1, the hidden layer h, the second layer's support h W2. -/
abbrev scS1 : Memref sig .tc .vmem S10000x128 .bf16 := Memref.whole cc0_scratch0
abbrev scH : Memref sig .tc .vmem S10000x128 .f32 := Memref.whole cc0_scratch1
abbrev scS2 : Memref sig .tc .vmem S10000x128 .bf16 := Memref.whole cc0_scratch2

/-- The class invariant with the scratch buffers as memrefs owned at some contents. -/
theorem PhiA_eq (c : Dev nD) :
    (Pipeline.ΦA spec0 c : sProp 𝕄)
      = iprop(iprop((∃ d, owns (c : Thread nD τ) scS1 fullShare d) ∗ (∃ d, owns (c : Thread nD τ) scH fullShare d) ∗ (∃ d, owns (c : Thread nD τ) scS2 fullShare d)) ∗ (∃ r, prngReg c r)) := by
  unfold Pipeline.ΦA; rw [scopedRest0_eq]; simp only [scS1, scH, scS2, owns_whole]; try rfl

end Cert.KernelIdeal.Body

end
-- ==== Proof.KIRunA.lean ====
/-
  The body at the grid's first point: it computes the first layer's support x W1 from the two resident operands and
  stores it whole, then does what every point of the first pass does, on rows 0 .. 399, reading the support it has
  just stored. Before this point the three scratch buffers hold anything.
-/
import proofs.«145158_g77695958385289_cont_9to1_m_732_18_alg».proof.Proof.KICases
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl

set_option maxHeartbeats 1000000 in
/-- The pieces the three scratch buffers are written with at the first point, with the proof that the body runs:
    each buffer ends at what it held with the pieces written. -/
noncomputable def runFirst (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .f32) (harg9 : arg9.IsWhole) (arg10 : Memref sig .tc .vmem S10000x128 .bf16) (harg10 : arg10.IsWhole)
    (hc1 : condFirst i) (hc2 : condPass1 i) (hc3 : ¬condPass2 i)
    (x0 : Vec F S400x10000 .f32) (x1 : Vec F S10000x128 .f32) (x2 : Vec F S128x128 .f32) (x3 : Vec F S128x128 .f32) (x4 : Vec F S1x128 .f32)
    (d8 : Vec F S10000x128 .bf16) (d9 : Vec F S10000x128 .f32) (d10 : Vec F S10000x128 .bf16) :
    Σ' (L8 : List (View.Piece (Elt F) S10000x128 .bf16)) (L9 : List (View.Piece (Elt F) S10000x128 .f32)), { L10 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare d8 ∗ owns (c : Thread nD τ) arg9 fullShare d9 ∗ owns (c : Thread nD τ) arg10 fullShare d10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg8.view.loc (c : Thread nD τ) ↦[arg8.view.set]{fullShare} arg8.view.writes (Elt F) (harg8.unread d8) L8) ∗ (arg9.view.loc (c : Thread nD τ) ↦[arg9.view.set]{fullShare} arg9.view.writes (Elt F) (harg9.unread d9) L9) ∗ (arg10.view.loc (c : Thread nD τ) ↦[arg10.view.set]{fullShare} arg10.view.writes (Elt F) (harg10.unread d10) L10)) -∗ K ⟨⟩))
          ⊢ wp frame (wpE (defs₀ (F := F)) Variants.none c none) E (cc0__gcn2_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__gcn2_kernel_eq_skeleton]; unfold cc0__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2
    obtain rfl := harg4.eq_unread hf3; obtain rfl := harg5.eq_unread hf4
    obtain rfl := harg8.eq_unread hf8; obtain rfl := harg9.eq_unread hf9; obtain rfl := harg10.eq_unread hf10
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H8]
    · iexact H8
    isplitl [H9]
    · iexact H9
    iexact H10

/-- The pieces of the first point: the first support stored whole, then rows 0 .. 399 of the hidden layer and of the
    second support, both computed from the support just stored. -/
theorem runFirst_pieces (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .f32) (harg9 : arg9.IsWhole) (arg10 : Memref sig .tc .vmem S10000x128 .bf16) (harg10 : arg10.IsWhole)
    (hc1 : condFirst i) (hc2 : condPass1 i) (hc3 : ¬condPass2 i)
    (x0 : Vec F S400x10000 .f32) (x1 : Vec F S10000x128 .f32) (x2 : Vec F S128x128 .f32) (x3 : Vec F S128x128 .f32) (x4 : Vec F S1x128 .f32)
    (d8 : Vec F S10000x128 .bf16) (d9 : Vec F S10000x128 .f32) (d10 : Vec F S10000x128 .bf16) :
    (runFirst c i arg1 harg1 arg2 harg2 arg3 harg3 arg4 harg4 arg5 harg5 arg6 harg6 arg7 harg7 arg8 harg8 arg9 harg9 arg10 harg10 hc1 hc2 hc3 x0 x1 x2 x3 x4 d8 d9 d10).1
      = [⟨Rect.unit (s := S10000x128) ![0, 0] S10000x128.size inb_S10000x128_S10000x128_0_0, k0_pay1 x1 x2⟩]
    ∧ (runFirst c i arg1 harg1 arg2 harg2 arg3 harg3 arg4 harg4 arg5 harg5 arg6 harg6 arg7 harg7 arg8 harg8 arg9 harg9 arg10 harg10 hc1 hc2 hc3 x0 x1 x2 x3 x4 d8 d9 d10).2.1
      = [⟨Rect.unit (s := S10000x128) (k0_off1 i) S400x128.size (k0_off1_inb i hc2), k0_pay3 x0 (k0_pay1 x1 x2) x4⟩]
    ∧ (runFirst c i arg1 harg1 arg2 harg2 arg3 harg3 arg4 harg4 arg5 harg5 arg6 harg6 arg7 harg7 arg8 harg8 arg9 harg9 arg10 harg10 hc1 hc2 hc3 x0 x1 x2 x3 x4 d8 d9 d10).2.2.1
      = [⟨Rect.unit (s := S10000x128) (k0_off1 i) S400x128.size (k0_off1_inb i hc2), k0_pay4 x0 (k0_pay1 x1 x2) x4 x3⟩] := by
  unfold runFirst
  dsimp only
  unfold runFirst.sl.v21 runFirst.sl.H8_1
  simp only [View.readAt_eq_ld, harg1.read_unread, harg2.read_unread, harg3.read_unread, harg4.read_unread, harg5.read_unread,
    View.ld_unit_zero (S := S400x10000) zeros2, View.ld_unit_zero (S := S10000x128) zeros2, View.ld_unit_zero (S := S1x128) zeros2,
    View.ld_unit_zero (S := S128x128) zeros2, View.readCov_unit_zero (S := S10000x128) _ zeros2]
  exact ⟨trivial, trivial, trivial⟩

end Cert.KernelIdeal.Body

end
-- ==== Proof.KIRunB.lean ====
/-
  The body at a point of the first pass after the first: it loads the adjacency block, the first layer's support and
  the first bias, stores the point's 400 rows of the hidden layer, then loads the second weight matrix and stores the
  same 400 rows of the second layer's support. The other rows of both buffers stay as the points before left them.
-/
import proofs.«145158_g77695958385289_cont_9to1_m_732_18_alg».proof.Proof.KIRunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the hidden layer's and the second support's buffers are written with at a later point of the first
    pass, with the proof that the body runs: each of the two buffers ends at its previous contents with the pieces written. -/
noncomputable def runPass1 (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .f32) (harg9 : arg9.IsWhole) (arg10 : Memref sig .tc .vmem S10000x128 .bf16) (harg10 : arg10.IsWhole)
    (hc1 : ¬condFirst i) (hc2 : condPass1 i) (hc3 : ¬condPass2 i)
    (x0 : Vec F S400x10000 .f32) (x3 : Vec F S128x128 .f32) (x4 : Vec F S1x128 .f32) (xs1 : Vec F S10000x128 .bf16)
    (xh : Vec F S10000x128 .f32) (xs2 : Vec F S10000x128 .bf16) :
    Σ' (L9 : List (View.Piece (Elt F) S10000x128 .f32)), { L10 : List (View.Piece (Elt F) S10000x128 .bf16) //
      ∀ (E : Set ℕ) (K : PUnit → sProp 𝕄),
        iprop(owns (c : Thread nD τ) arg1 fullShare x0 ∗ owns (c : Thread nD τ) arg4 fullShare x3 ∗ owns (c : Thread nD τ) arg5 fullShare x4 ∗ owns (c : Thread nD τ) arg8 fullShare xs1 ∗ owns (c : Thread nD τ) arg9 fullShare xh ∗ owns (c : Thread nD τ) arg10 fullShare xs2
            ∗ (iprop(owns (c : Thread nD τ) arg1 fullShare x0 ∗ owns (c : Thread nD τ) arg4 fullShare x3 ∗ owns (c : Thread nD τ) arg5 fullShare x4 ∗ owns (c : Thread nD τ) arg8 fullShare xs1 ∗ (arg9.view.loc (c : Thread nD τ) ↦[arg9.view.set]{fullShare} arg9.view.writes (Elt F) (harg9.unread xh) L9) ∗ (arg10.view.loc (c : Thread nD τ) ↦[arg10.view.set]{fullShare} arg10.view.writes (Elt F) (harg10.unread xs2) L10)) -∗ K ⟨⟩))
          ⊢ wp frame (wpE (defs₀ (F := F)) Variants.none c none) E (cc0__gcn2_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__gcn2_kernel_eq_skeleton]; unfold cc0__gcn2_kernel_skel
    unfold owns
    iintro ⟨⟨%f0, %hf0, H0⟩, ⟨%f3, %hf3, H3⟩, ⟨%f4, %hf4, H4⟩, ⟨%f8, %hf8, H8⟩, ⟨%f9, %hf9, H9⟩, ⟨%f10, %hf10, H10⟩, Hk⟩
    obtain rfl := harg1.eq_unread hf0; obtain rfl := harg4.eq_unread hf3; obtain rfl := harg5.eq_unread hf4
    obtain rfl := harg8.eq_unread hf8; obtain rfl := harg9.eq_unread hf9; obtain rfl := harg10.eq_unread hf10
    sl_exec (disch := first | exact hc1 | exact hc2 | exact hc3)
    sl_step
    iapply Hk
    isplitl [H0]
    · iexists _; isplitr; · ipureintro; exact harg1.read_unread _
      iexact H0
    isplitl [H3]
    · iexists _; isplitr; · ipureintro; exact harg4.read_unread _
      iexact H3
    isplitl [H4]
    · iexists _; isplitr; · ipureintro; exact harg5.read_unread _
      iexact H4
    isplitl [H8]
    · iexists _; isplitr; · ipureintro; exact harg8.read_unread _
      iexact H8
    isplitl [H9]
    · iexact H9
    iexact H10

/-- The pieces of a later point of the first pass: the point's 400 rows of the hidden layer at the payload of the
    adjacency block, the first support and the first bias, and the same rows of the second support at that payload
    multiplied by the second weight matrix. -/
theorem runPass1_pieces (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .f32) (harg9 : arg9.IsWhole) (arg10 : Memref sig .tc .vmem S10000x128 .bf16) (harg10 : arg10.IsWhole)
    (hc1 : ¬condFirst i) (hc2 : condPass1 i) (hc3 : ¬condPass2 i)
    (x0 : Vec F S400x10000 .f32) (x3 : Vec F S128x128 .f32) (x4 : Vec F S1x128 .f32) (xs1 : Vec F S10000x128 .bf16)
    (xh : Vec F S10000x128 .f32) (xs2 : Vec F S10000x128 .bf16) :
    (runPass1 c i arg1 harg1 arg2 harg2 arg3 harg3 arg4 harg4 arg5 harg5 arg6 harg6 arg7 harg7 arg8 harg8 arg9 harg9 arg10 harg10 hc1 hc2 hc3 x0 x3 x4 xs1 xh xs2).1
      = [⟨Rect.unit (s := S10000x128) (k0_off1 i) S400x128.size (k0_off1_inb i hc2), k0_pay3 x0 xs1 x4⟩]
    ∧ (runPass1 c i arg1 harg1 arg2 harg2 arg3 harg3 arg4 harg4 arg5 harg5 arg6 harg6 arg7 harg7 arg8 harg8 arg9 harg9 arg10 harg10 hc1 hc2 hc3 x0 x3 x4 xs1 xh xs2).2.1
      = [⟨Rect.unit (s := S10000x128) (k0_off1 i) S400x128.size (k0_off1_inb i hc2), k0_pay4 x0 xs1 x4 x3⟩] := by
  unfold runPass1
  dsimp only
  simp only [View.readAt_eq_ld, harg1.read_unread, harg4.read_unread, harg5.read_unread, harg8.read_unread,
    View.ld_unit_zero (S := S400x10000) zeros2, View.ld_unit_zero (S := S10000x128) zeros2, View.ld_unit_zero (S := S1x128) zeros2,
    View.ld_unit_zero (S := S128x128) zeros2]
  exact ⟨trivial, trivial⟩

end Cert.KernelIdeal.Body

end
-- ==== Proof.KIRunC.lean ====
/-
  The body at a point of the second pass: it loads the adjacency block, the second layer's support, the second bias
  and the point's 400 rows of the hidden layer, and stores the output block whole. The scratch buffers are read only.
-/
import proofs.«145158_g77695958385289_cont_9to1_m_732_18_alg».proof.Proof.KIRunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the output's staging buffer ends with at a point of the second pass, with the proof that on whole
    memrefs at the stated contents the body runs and hands everything it read back unchanged. -/
noncomputable def runPass2 (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .f32) (harg9 : arg9.IsWhole) (arg10 : Memref sig .tc .vmem S10000x128 .bf16) (harg10 : arg10.IsWhole)
    (hc1 : ¬condFirst i) (hc2 : ¬condPass1 i) (hc3 : condPass2 i)
    (x0 : Vec F S400x10000 .f32) (x5 : Vec F S1x128 .f32) (xh : Vec F S10000x128 .f32) (xs2 : Vec F S10000x128 .bf16) :
    { L7 : List (View.Piece (Elt F) S400x128 .f32) //
      ∀ (d7 : Vec F S400x128 .f32) (E : Set ℕ) (K : PUnit → sProp 𝕄),
        iprop(owns (c : Thread nD τ) arg1 fullShare x0 ∗ owns (c : Thread nD τ) arg6 fullShare x5 ∗ owns (c : Thread nD τ) arg7 fullShare d7 ∗ owns (c : Thread nD τ) arg9 fullShare xh ∗ owns (c : Thread nD τ) arg10 fullShare xs2
            ∗ (iprop(owns (c : Thread nD τ) arg1 fullShare x0 ∗ owns (c : Thread nD τ) arg6 fullShare x5 ∗ (∃ f, arg7.view.loc (c : Thread nD τ) ↦[arg7.view.set]{fullShare} arg7.view.writes (Elt F) f L7) ∗ owns (c : Thread nD τ) arg9 fullShare xh ∗ owns (c : Thread nD τ) arg10 fullShare xs2) -∗ K ⟨⟩))
          ⊢ wp frame (wpE (defs₀ (F := F)) Variants.none c none) E (cc0__gcn2_kernel i arg1 harg1 arg2 harg2 arg3 harg3 arg4 harg4 arg5 harg5 arg6 harg6 arg7 harg7 arg8 harg8 arg9 harg9 arg10 harg10) K } := by
  refine ⟨?_, fun d7 E K => ?run⟩
  case run =>
    simp only [cc0__gcn2_kernel_eq_skeleton]; unfold cc0__gcn2_kernel_skel
    unfold owns
    iintro ⟨⟨%f0, %hf0, H0⟩, ⟨%f5, %hf5, H5⟩, ⟨%f7, %hf7, H7⟩, ⟨%f9, %hf9, H9⟩, ⟨%f10, %hf10, H10⟩, Hk⟩
    obtain rfl := harg1.eq_unread hf0; obtain rfl := harg6.eq_unread hf5; obtain rfl := harg7.eq_unread hf7
    obtain rfl := harg9.eq_unread hf9; obtain rfl := harg10.eq_unread hf10
    sl_exec (disch := first | exact hc1 | exact hc2 | exact hc3)
    sl_step
    iapply Hk
    isplitl [H0]
    · iexists _; isplitr; · ipureintro; exact harg1.read_unread _
      iexact H0
    isplitl [H5]
    · iexists _; isplitr; · ipureintro; exact harg6.read_unread _
      iexact H5
    isplitl [H7]
    · iexists _; iexact H7
    isplitl [H9]
    · iexists _; isplitr; · ipureintro; exact harg9.read_unread _
      iexact H9
    iexists _; isplitr; · ipureintro; exact harg10.read_unread _
    iexact H10

/-- The one piece the output's buffer is written with in the second pass: the whole block, at the last payload of the
    adjacency block, the second support, the second bias and the point's rows of the hidden layer. -/
theorem runPass2_pieces (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .f32) (harg9 : arg9.IsWhole) (arg10 : Memref sig .tc .vmem S10000x128 .bf16) (harg10 : arg10.IsWhole)
    (hc1 : ¬condFirst i) (hc2 : ¬condPass1 i) (hc3 : condPass2 i)
    (x0 : Vec F S400x10000 .f32) (x5 : Vec F S1x128 .f32) (xh : Vec F S10000x128 .f32) (xs2 : Vec F S10000x128 .bf16) :
    (runPass2 c i arg1 harg1 arg2 harg2 arg3 harg3 arg4 harg4 arg5 harg5 arg6 harg6 arg7 harg7 arg8 harg8 arg9 harg9 arg10 harg10 hc1 hc2 hc3 x0 x5 xh xs2).1
      = [⟨Rect.unit (s := S400x128) ![0, 0] S400x128.size inb_S400x128_S400x128_0_0,
          k0_pay5 x0 xs2 x5 (View.ld xh (Rect.unit (s := S10000x128) (k0_off2 i) S400x128.size (k0_off2_inb i hc3)))⟩] := by
  unfold runPass2
  dsimp only
  simp only [View.readAt_eq_ld, harg1.read_unread, harg6.read_unread, harg9.read_unread, harg10.read_unread,
    View.ld_unit_zero (S := S400x10000) zeros2, View.ld_unit_zero (S := S10000x128) zeros2, View.ld_unit_zero (S := S1x128) zeros2]

end Cert.KernelIdeal.Body

end
-- ==== Proof.KIBody.lean ====
/-
  What the kernel leaves behind, point by point, and the run.

  The grid makes two passes of 25 points over the 400-row blocks of the adjacency matrix A. With X the node features,
  the first point computes S1 = X W1 into a scratch buffer; point t of the first pass computes rows 400 t .. 400 t + 399 of
  H = max(A S1 + b1, 0) and of S2 = H W2 into two more scratch buffers; point 25 + t of the second pass stores rows
  400 t .. of max(A S2 + b2, 0) + H into the output window, which is written back at every point of that pass.
  So after point n of the first pass the two row-blocked buffers hold their final values on rows below 400 (n + 1)
  and, on the other rows, whatever they held before the kernel started: contents the invariant does not name but carries
  unchanged. From point 24 on all three buffers hold S1, H and S2 whole.
-/
import proofs.«145158_g77695958385289_cont_9to1_m_732_18_alg».proof.Proof.KIRunC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- The grid's first point. -/
def t0 : Fin cfg0.N := ⟨0, by rw [N50]; decide⟩

/-! ## The three scratch buffers' final contents -/

/-- The first layer's support, as the first point stores it: the matrix product of the two resident operands. -/
def s1 (c : Dev nD) : Vec F S10000x128 .bf16 := k0_pay1 (iblk m c 1 t0) (iblk m c 2 t0)

/-- The point of the first pass that works on row r: r / 400. -/
def rowPt (y : S10000x128.Idx) : Fin cfg0.N :=
  ⟨(y 0).val / 400, by rw [N50]; have h : (y 0).val < 10000 := (y 0).isLt; omega⟩

theorem rowPt_bounds (y : S10000x128.Idx) : 400 * (rowPt y).val ≤ (y 0).val ∧ (y 0).val < 400 * (rowPt y).val + 400 := by
  show 400 * ((y 0).val / 400) ≤ (y 0).val ∧ (y 0).val < 400 * ((y 0).val / 400) + 400
  omega

/-- The hidden layer: row r is row r mod 400 of what the point r / 400 computes from its adjacency block, the first
    support and the first bias. -/
def hFull (c : Dev nD) : Vec F S10000x128 .f32 := fun y =>
  k0_pay3 (iblk m c 0 (rowPt y)) (s1 m c) (iblk m c 4 (rowPt y)) (Rect.unitLocal (s := S10000x128) (off := ![400 * (rowPt y).val, 0]) (size := S400x128.size) y (Rect.unit_rows_mem y rfl rfl (rowPt_bounds y)))

/-- The second layer's support: the same rows multiplied by the second weight matrix. -/
def s2Full (c : Dev nD) : Vec F S10000x128 .bf16 := fun y =>
  k0_pay4 (iblk m c 0 (rowPt y)) (s1 m c) (iblk m c 4 (rowPt y)) (iblk m c 3 (rowPt y)) (Rect.unitLocal (s := S10000x128) (off := ![400 * (rowPt y).val, 0]) (size := S400x128.size) y (Rect.unit_rows_mem y rfl rfl (rowPt_bounds y)))

/-- On the rows of block t the hidden layer is what point t computes. -/
theorem hFull_at (c : Dev nD) (t : Fin cfg0.N) (y : S10000x128.Idx)
    (h : 400 * t.val ≤ (y 0).val ∧ (y 0).val < 400 * t.val + 400) :
    hFull m c y = k0_pay3 (iblk m c 0 t) (s1 m c) (iblk m c 4 t) (Rect.unitLocal (s := S10000x128) (off := ![400 * t.val, 0]) (size := S400x128.size) y (Rect.unit_rows_mem y rfl rfl h)) := by
  obtain rfl : t = rowPt y := Fin.ext (by show t.val = (y 0).val / 400; omega)
  rfl

theorem s2Full_at (c : Dev nD) (t : Fin cfg0.N) (y : S10000x128.Idx)
    (h : 400 * t.val ≤ (y 0).val ∧ (y 0).val < 400 * t.val + 400) :
    s2Full m c y = k0_pay4 (iblk m c 0 t) (s1 m c) (iblk m c 4 t) (iblk m c 3 t) (Rect.unitLocal (s := S10000x128) (off := ![400 * t.val, 0]) (size := S400x128.size) y (Rect.unit_rows_mem y rfl rfl h)) := by
  obtain rfl : t = rowPt y := Fin.ext (by show t.val = (y 0).val / 400; omega)
  rfl

/-- After point n: the final rows below 400 (n + 1), the unnamed contents J elsewhere. -/
def mixH (c : Dev nD) (n : ℕ) (J : Vec F S10000x128 .f32) : Vec F S10000x128 .f32 :=
  fun y => if (y 0).val < 400 * (n + 1) then hFull m c y else J y
def mixS2 (c : Dev nD) (n : ℕ) (J : Vec F S10000x128 .bf16) : Vec F S10000x128 .bf16 :=
  fun y => if (y 0).val < 400 * (n + 1) then s2Full m c y else J y

theorem mixH_full (c : Dev nD) (n : ℕ) (hn : 24 ≤ n) (J : Vec F S10000x128 .f32) : mixH m c n J = hFull m c := by
  funext y; unfold mixH; have h : (y 0).val < 10000 := (y 0).isLt; rw [if_pos (by omega)]
theorem mixS2_full (c : Dev nD) (n : ℕ) (hn : 24 ≤ n) (J : Vec F S10000x128 .bf16) : mixS2 m c n J = s2Full m c := by
  funext y; unfold mixS2; have h : (y 0).val < 10000 := (y 0).isLt; rw [if_pos (by omega)]

/-- One store of 400 whole rows at row o, read back at an index: the payload on those rows, the old contents elsewhere. -/
theorem read_store_rows {e : EltTy} (v : View sig .tc .vmem S10000x128 e) (f : v.ty.Contents (Elt F)) {off : Fin 2 → ℕ}
    (inb : ∀ a : Fin 2, off a + S400x128.size a ≤ S10000x128.size a)
    (P : (Rect.unit (s := S10000x128) off S400x128.size inb).shape.Idx → Elt F e) (o : ℕ) (hoff : off = ![o, 0]) (y : S10000x128.Idx) :
    v.read (Elt F) (v.writes (Elt F) f [⟨Rect.unit (s := S10000x128) off S400x128.size inb, P⟩]) y
      = if h : o ≤ (y 0).val ∧ (y 0).val < o + 400 then P (Rect.unitLocal (s := S10000x128) (off := ![o, 0]) (size := S400x128.size) y (Rect.unit_rows_mem y rfl rfl h)) else v.read (Elt F) f y := by
  rw [View.read_writes_cons_rows v f inb P [] y hoff rfl rfl]; rfl

/-- Point t of the first pass takes the hidden layer's buffer from its state after point t - 1 (at the first point:
    from the unnamed contents) to its state after point t. -/
theorem mixH_step (c : Dev nD) (t : Fin cfg0.N) (J prev : Vec F S10000x128 .f32)
    (hprev : ∀ y : S10000x128.Idx, ¬(400 * t.val ≤ (y 0).val ∧ (y 0).val < 400 * t.val + 400) → prev y = mixH m c t.val J y)
    (y : S10000x128.Idx) :
    (if h : 400 * t.val ≤ (y 0).val ∧ (y 0).val < 400 * t.val + 400 then
        k0_pay3 (iblk m c 0 t) (s1 m c) (iblk m c 4 t) (Rect.unitLocal (s := S10000x128) (off := ![400 * t.val, 0]) (size := S400x128.size) y (Rect.unit_rows_mem y rfl rfl h))
      else prev y) = mixH m c t.val J y := by
  by_cases h : 400 * t.val ≤ (y 0).val ∧ (y 0).val < 400 * t.val + 400
  · rw [dif_pos h]; unfold mixH; rw [if_pos (by omega)]; exact (hFull_at m c t y h).symm
  · rw [dif_neg h]; exact hprev y h

theorem mixS2_step (c : Dev nD) (t : Fin cfg0.N) (J prev : Vec F S10000x128 .bf16)
    (hprev : ∀ y : S10000x128.Idx, ¬(400 * t.val ≤ (y 0).val ∧ (y 0).val < 400 * t.val + 400) → prev y = mixS2 m c t.val J y)
    (y : S10000x128.Idx) :
    (if h : 400 * t.val ≤ (y 0).val ∧ (y 0).val < 400 * t.val + 400 then
        k0_pay4 (iblk m c 0 t) (s1 m c) (iblk m c 4 t) (iblk m c 3 t) (Rect.unitLocal (s := S10000x128) (off := ![400 * t.val, 0]) (size := S400x128.size) y (Rect.unit_rows_mem y rfl rfl h))
      else prev y) = mixS2 m c t.val J y := by
  by_cases h : 400 * t.val ≤ (y 0).val ∧ (y 0).val < 400 * t.val + 400
  · rw [dif_pos h]; unfold mixS2; rw [if_pos (by omega)]; exact (s2Full_at m c t y h).symm
  · rw [dif_neg h]; exact hprev y h

/-- Outside block 0 the state after the first point is the unnamed contents. -/
theorem mixH_zero_out (c : Dev nD) (t : Fin cfg0.N) (hz : t.val = 0) (J : Vec F S10000x128 .f32) (y : S10000x128.Idx)
    (h : ¬(400 * t.val ≤ (y 0).val ∧ (y 0).val < 400 * t.val + 400)) : J y = mixH m c t.val J y := by
  unfold mixH; rw [if_neg (by omega)]
theorem mixS2_zero_out (c : Dev nD) (t : Fin cfg0.N) (hz : t.val = 0) (J : Vec F S10000x128 .bf16) (y : S10000x128.Idx)
    (h : ¬(400 * t.val ≤ (y 0).val ∧ (y 0).val < 400 * t.val + 400)) : J y = mixS2 m c t.val J y := by
  unfold mixS2; rw [if_neg (by omega)]
/-- Outside block t the state after point t is the state after point t - 1. -/
theorem mixH_pos_out (c : Dev nD) (t : Fin cfg0.N) (hz : t.val ≠ 0) (J : Vec F S10000x128 .f32) (y : S10000x128.Idx)
    (h : ¬(400 * t.val ≤ (y 0).val ∧ (y 0).val < 400 * t.val + 400)) : mixH m c (t.val - 1) J y = mixH m c t.val J y := by
  unfold mixH
  by_cases h1 : (y 0).val < 400 * (t.val - 1 + 1)
  · rw [if_pos h1, if_pos (by omega)]
  · rw [if_neg h1, if_neg (by omega)]
theorem mixS2_pos_out (c : Dev nD) (t : Fin cfg0.N) (hz : t.val ≠ 0) (J : Vec F S10000x128 .bf16) (y : S10000x128.Idx)
    (h : ¬(400 * t.val ≤ (y 0).val ∧ (y 0).val < 400 * t.val + 400)) : mixS2 m c (t.val - 1) J y = mixS2 m c t.val J y := by
  unfold mixS2
  by_cases h1 : (y 0).val < 400 * (t.val - 1 + 1)
  · rw [if_pos h1, if_pos (by omega)]
  · rw [if_neg h1, if_neg (by omega)]

/-! ## The output block -/

/-- What a point of the second pass stores into the output window: the last payload of its adjacency block, the second
    support, the second bias and its 400 rows of the hidden layer. In the first pass the window is idle. -/
def outAt (c : Dev nD) (t : Fin cfg0.N) : Vec F S400x128 .f32 :=
  if h : 25 ≤ t.val then
    k0_pay5 (iblk m c 0 t) (s2Full m c) (iblk m c 5 t)
      (View.ld (hFull m c) (Rect.unit (s := S10000x128) (k0_off2 (grid0.coords t)) S400x128.size (k0_off2_inb (grid0.coords t) ((hcondPass2 t).mpr h))))
  else fun _ => Classical.choice (Elt.nonempty F _)

/-! ## The invariant -/

/-- Before point n: at the start the class invariant (the scratch at anything); afterwards the first support whole and the
    two row-blocked buffers at their state after point n - 1, over contents not named. -/
def PhiS (c : Dev nD) : (n : ℕ) → n ≤ cfg0.N → sProp 𝕄
  | 0, _ => Pipeline.ΦA spec0 c
  | n + 1, _ => iprop(iprop(∃ J9, ∃ J10, owns (c : Thread nD τ) scS1 fullShare (s1 m c) ∗ owns (c : Thread nD τ) scH fullShare (mixH m c n J9) ∗ owns (c : Thread nD τ) scS2 fullShare (mixS2 m c n J10)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(∃ J9, ∃ J10, owns (c : Thread nD τ) scS1 fullShare (s1 m c) ∗ owns (c : Thread nD τ) scH fullShare (mixH m c n J9) ∗ owns (c : Thread nD τ) scS2 fullShare (mixS2 m c n J10)) ∗ (∃ r, prngReg c r)) := rfl

theorem PhiS_pos (c : Dev nD) (n : ℕ) (h : n ≤ cfg0.N) (hz : n ≠ 0) :
    PhiS m c n h = iprop(iprop(∃ J9, ∃ J10, owns (c : Thread nD τ) scS1 fullShare (s1 m c) ∗ owns (c : Thread nD τ) scH fullShare (mixH m c (n - 1) J9) ∗ owns (c : Thread nD τ) scS2 fullShare (mixS2 m c (n - 1) J10)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The stores read back -/

/-- The first support after its one whole store. -/
theorem S1_store (hw : scS1.IsWhole) (d8 : Vec F S10000x128 .bf16) (w : Vec F S10000x128 .bf16) :
    scS1.view.read (Elt F) (scS1.view.writes (Elt F) (hw.unread d8)
      [⟨Rect.unit (s := S10000x128) ![0, 0] S10000x128.size inb_S10000x128_S10000x128_0_0, w⟩]) = w :=
  (View.read_writes_eq_canon _ _ _ (fun y => ⟨_, List.mem_singleton_self _, View.mem_set_unit_zero zeros2 inb_S10000x128_S10000x128_0_0 y⟩)).trans
    (View.canon_unit_zero zeros2 _ _)

/-- The hidden layer's buffer after point t of the first pass stored its rows over the state prev. -/
theorem H_store (c : Dev nD) (t : Fin cfg0.N) (ht : t.val < 25) (J prev : Vec F S10000x128 .f32)
    (hprev : ∀ y : S10000x128.Idx, ¬(400 * t.val ≤ (y 0).val ∧ (y 0).val < 400 * t.val + 400) → prev y = mixH m c t.val J y)
    (hw : scH.IsWhole) (inb : ∀ a : Fin 2, k0_off1 (grid0.coords t) a + S400x128.size a ≤ S10000x128.size a) :
    scH.view.read (Elt F) (scH.view.writes (Elt F) (hw.unread prev)
      [⟨Rect.unit (s := S10000x128) (k0_off1 (grid0.coords t)) S400x128.size inb, k0_pay3 (iblk m c 0 t) (s1 m c) (iblk m c 4 t)⟩])
      = mixH m c t.val J := by
  funext y
  rw [read_store_rows _ _ _ _ (400 * t.val) (off1_eq t ht) y, hw.read_unread]
  exact mixH_step m c t J prev hprev y

theorem S2_store (c : Dev nD) (t : Fin cfg0.N) (ht : t.val < 25) (J prev : Vec F S10000x128 .bf16)
    (hprev : ∀ y : S10000x128.Idx, ¬(400 * t.val ≤ (y 0).val ∧ (y 0).val < 400 * t.val + 400) → prev y = mixS2 m c t.val J y)
    (hw : scS2.IsWhole) (inb : ∀ a : Fin 2, k0_off1 (grid0.coords t) a + S400x128.size a ≤ S10000x128.size a) :
    scS2.view.read (Elt F) (scS2.view.writes (Elt F) (hw.unread prev)
      [⟨Rect.unit (s := S10000x128) (k0_off1 (grid0.coords t)) S400x128.size inb, k0_pay4 (iblk m c 0 t) (s1 m c) (iblk m c 4 t) (iblk m c 3 t)⟩])
      = mixS2 m c t.val J := by
  funext y
  rw [read_store_rows _ _ _ _ (400 * t.val) (off1_eq t ht) y, hw.read_unread]
  exact mixS2_step m c t J prev hprev y

/-- The output block after its one whole store, whatever the buffer held. -/
theorem out_store (v : View sig .tc .vmem S400x128 .f32) (f : v.ty.Contents (Elt F)) (w : Vec F S400x128 .f32) :
    v.read (Elt F) (v.writes (Elt F) f
      [⟨Rect.unit (s := S400x128) ![0, 0] S400x128.size inb_S400x128_S400x128_0_0, w⟩]) = w :=
  (View.read_writes_eq_canon _ _ _ (fun y => ⟨_, List.mem_singleton_self _, View.mem_set_unit_zero zeros2 inb_S400x128_S400x128_0_0 y⟩)).trans
    (View.canon_unit_zero zeros2 _ _)

/-! ## The body obligation, at a generic point -/

theorem leavesIn0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [liveAt0 t], after0]
theorem leavesIn1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [liveAt1 t], after1]
theorem leavesIn2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [liveAt2 t], after2]
theorem leavesIn3 (c : Dev nD) (t : Fin cfg0.N) :
    (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [liveAt3 t], after3]
theorem leavesIn4 (c : Dev nD) (t : Fin cfg0.N) :
    (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [liveAt4 t], after4]
theorem leavesIn5 (c : Dev nD) (t : Fin cfg0.N) :
    (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [liveAt5 t], after5]
theorem leavesOut (c : Dev nD) (t : Fin cfg0.N) (h : 25 ≤ t.val) :
    (dats m 0 c).leavesExact 6 t = owns (c : Thread nD τ) (ms6 t) fullShare ((dats m 0 c).after 6 t) := by
  unfold Dat.leavesExact; rw [liveAt6 t h]

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' memrefs hold their blocks; the point's position says which of the three cases it is in;
    the invariant hands the body the scratch buffers at their state after the point before (at anything, at the first
    point) and takes them back at their state after this one; in the first pass the output window is handed back as
    found, in the second it ends at the stored block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5]
  have hN : t.val < 50 := lt_of_lt_of_eq t.isLt N50
  by_cases h25 : t.val < 25
  · rw [Dat.leavesExact_idle (dats m 0 c) 6 t (idleAt6 t h25) (noFlush6 t h25)]
    by_cases hz : t.val = 0
    · obtain rfl : t = t0 := Fin.ext hz
      have hp := runFirst_pieces (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) scS1 (Memref.isWhole_whole _) scH (Memref.isWhole_whole _) scS2 (Memref.isWhole_whole _)
        ((hcondFirst t0).mpr hz) ((hcondPass1 t0).mpr h25) (fun h => by have := (hcondPass2 t0).mp h; omega)
        (iblk m c 0 t0) (iblk m c 1 t0) (iblk m c 2 t0) (iblk m c 3 t0) (iblk m c 4 t0)
      rw [PhiS_castSucc m c t0, PhiS_zero m c _ _ hz, PhiA_eq]
      iintro ⟨⟨⟨⟨%d8, HS8⟩, ⟨%d9, HS9⟩, ⟨%d10, HS10⟩⟩, Hg⟩, Ho, ⟨%e0, H0⟩, ⟨%e1, H1⟩, ⟨%e2, H2⟩, ⟨%e3, H3⟩, ⟨%e4, H4⟩, ⟨%e5, H5⟩, ⟨%e6, H6⟩⟩
      iapply ((runFirst c (grid0.coords t0) _ _ _ _ _ _ _ _ _ _ _ _ _ _ _ _ _ _ _ _
        ((hcondFirst t0).mpr hz) ((hcondPass1 t0).mpr h25) (fun h => by have := (hcondPass2 t0).mp h; omega)
        (iblk m c 0 t0) (iblk m c 1 t0) (iblk m c 2 t0) (iblk m c 3 t0) (iblk m c 4 t0) d8 d9 d10).2.2.2 Set.univ _)
      isplitl [H0]; · iexact H0
      isplitl [H1]; · iexact H1
      isplitl [H2]; · iexact H2
      isplitl [H3]; · iexact H3
      isplitl [H4]; · iexact H4
      isplitl [HS8]; · iexact HS8
      isplitl [HS9]; · iexact HS9
      isplitl [HS10]; · iexact HS10
      iintro ⟨H0, H1, H2, H3, H4, HS8, HS9, HS10⟩
      isplitl [HS8 HS9 HS10 Hg]
      · isplitl [HS8 HS9 HS10]
        · iexists d9; iexists d10
          isplitl [HS8]
          · unfold owns; iexists _; isplitr
            swap; · iexact HS8
            ipureintro
            rw [(hp d8 d9 d10).1]; exact S1_store _ d8 _
          isplitl [HS9]
          · unfold owns; iexists _; isplitr
            swap; · iexact HS9
            ipureintro
            rw [(hp d8 d9 d10).2.1]; exact H_store m c t0 h25 d9 d9 (mixH_zero_out m c t0 hz d9) _ _
          · unfold owns; iexists _; isplitr
            swap; · iexact HS10
            ipureintro
            rw [(hp d8 d9 d10).2.2]; exact S2_store m c t0 h25 d10 d10 (mixS2_zero_out m c t0 hz d10) _ _
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists e6; iexact H6
    · have hp := runPass1_pieces (F := F) c (grid0.coords t) (ms0 t) (hs0 t) (ms1 t) (hs1 t) (ms2 t) (hs2 t) (ms3 t) (hs3 t) (ms4 t) (hs4 t) (ms5 t) (hs5 t) (ms6 t) (hs6 t) scS1 (Memref.isWhole_whole _) scH (Memref.isWhole_whole _) scS2 (Memref.isWhole_whole _)
        (fun h => hz ((hcondFirst t).mp h)) ((hcondPass1 t).mpr h25) (fun h => by have := (hcondPass2 t).mp h; omega)
        (iblk m c 0 t) (iblk m c 3 t) (iblk m c 4 t) (s1 m c)
      rw [PhiS_castSucc m c t, PhiS_pos m c _ _ hz]
      iintro ⟨⟨⟨%J9, %J10, HS8, HS9, HS10⟩, Hg⟩, Ho, ⟨%e0, H0⟩, ⟨%e1, H1⟩, ⟨%e2, H2⟩, ⟨%e3, H3⟩, ⟨%e4, H4⟩, ⟨%e5, H5⟩, ⟨%e6, H6⟩⟩
      iapply ((runPass1 c (grid0.coords t) _ _ _ _ _ _ _ _ _ _ _ _ _ _ _ _ _ _ _ _
        (fun h => hz ((hcondFirst t).mp h)) ((hcondPass1 t).mpr h25) (fun h => by have := (hcondPass2 t).mp h; omega)
        (iblk m c 0 t) (iblk m c 3 t) (iblk m c 4 t) (s1 m c) (mixH m c (t.val - 1) J9) (mixS2 m c (t.val - 1) J10)).2.2 Set.univ _)
      isplitl [H0]; · iexact H0
      isplitl [H3]; · iexact H3
      isplitl [H4]; · iexact H4
      isplitl [HS8]; · iexact HS8
      isplitl [HS9]; · iexact HS9
      isplitl [HS10]; · iexact HS10
      iintro ⟨H0, H3, H4, HS8, HS9, HS10⟩
      isplitl [HS8 HS9 HS10 Hg]
      · isplitl [HS8 HS9 HS10]
        · iexists J9; iexists J10
          isplitl [HS8]; · iexact HS8
          isplitl [HS9]
          · unfold owns; iexists _; isplitr
            swap; · iexact HS9
            ipureintro
            rw [(hp (mixH m c (t.val - 1) J9) (mixS2 m c (t.val - 1) J10)).1]; exact H_store m c t h25 J9 _ (mixH_pos_out m c t hz J9) _ _
          · unfold owns; iexists _; isplitr
            swap; · iexact HS10
            ipureintro
            rw [(hp (mixH m c (t.val - 1) J9) (mixS2 m c (t.val - 1) J10)).2]; exact S2_store m c t h25 J10 _ (mixS2_pos_out m c t hz J10) _ _
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists e6; iexact H6
  · have h25' : 25 ≤ t.val := by omega
    rw [leavesOut m c t h25', after6]
    unfold outAt; rw [dif_pos h25']
    rw [PhiS_castSucc m c t, PhiS_pos m c _ _ (by omega)]
    simp only [mixH_full m c (t.val - 1) (by omega), mixS2_full m c (t.val - 1) (by omega), mixH_full m c t.val (by omega), mixS2_full m c t.val (by omega)]
    iintro ⟨⟨⟨%J9, %J10, HS8, HS9, HS10⟩, Hg⟩, Ho, ⟨%e0, H0⟩, ⟨%e1, H1⟩, ⟨%e2, H2⟩, ⟨%e3, H3⟩, ⟨%e4, H4⟩, ⟨%e5, H5⟩, ⟨%e6, H6⟩⟩
    iapply ((runPass2 c (grid0.coords t) _ _ _ _ _ _ _ _ _ _ _ _ _ _ _ _ _ _ _ _
      (fun h => by have := (hcondFirst t).mp h; omega) (fun h => by have := (hcondPass1 t).mp h; omega) ((hcondPass2 t).mpr h25')
      (iblk m c 0 t) (iblk m c 5 t) (hFull m c) (s2Full m c)).2 _ Set.univ _)
    isplitl [H0]; · iexact H0
    isplitl [H5]; · iexact H5
    isplitl [H6]; · iexact H6
    isplitl [HS9]; · iexact HS9
    isplitl [HS10]; · iexact HS10
    iintro ⟨H0, H5, ⟨%f7, H6⟩, HS9, HS10⟩
    isplitl [HS8 HS9 HS10 Hg]
    · isplitl [HS8 HS9 HS10]
      · iexists J9; iexists J10
        isplitl [HS8]; · iexact HS8
        isplitl [HS9]; · iexact HS9
        iexact HS10
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    rw [runPass2_pieces]; exact out_store _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class invariant back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨%J9, %J10, HS8, HS9, HS10⟩, Hg⟩
  isplitl [HS8 HS9 HS10]
  · isplitl [HS8]; · iexists _; iexact HS8
    isplitl [HS9]; · iexists _; iexact HS9
    iexists _; iexact HS10
  iexact Hg

theorem hout (c : Dev nD) : (dats m 0 c).Φ (Fin.last cfg0.N) ⊢ Pipeline.ΦA spec0 c :=
  Phi_out m c _ (by rw [Fin.val_last]; have : cfg0.N = 50 := N_0; omega)

/-! ## The run and the frame -/

set_option backward.isDefEq.respectTransparency.types false in
/-- Every weakly fair execution of the program terminates, and every final state has each array of the pipeline at what
    the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, faults nowhere and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KIVal1.lean ====
/-
  The blocks the kernel's windows stage, read as entries of the argument arrays: point t stages rows
  400 (t mod 25) .. of the adjacency matrix, and the other five operands whole (the node features, the two weight
  matrices, and the two biases as [1, 128] rows the host makes by a reshape before the region). The output window's
  block at a point of the second pass is rows 400 (t - 25) .. of the result.
-/
import proofs.«145158_g77695958385289_cont_9to1_m_732_18_alg».proof.Proof.KIBody
import Idealize.ShloMosaic.Lib.ValueIdx
import Idealize.ShloMosaic.Lib.ValueLayout
import Idealize.ShloMosaic.Lib.Pipeline.Value
import Idealize.ShloMosaic.Lib.StableHlo.Run
import Idealize.ShloMosaic.Lib.Decide

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Body

variable (m : (ℓ : Loc nD τ sig) → Buf (Elt Ideal) ℓ)

/-! ## The index maps over the grid -/

theorem idx0 : ∀ t : Fin cfg0.N, win0_0.index t 0 = t.val % 25 ∧ win0_0.index t 1 = 0 :=
  (by decide +kernel : ∀ t : Fin grid0.N, win0_0.index t 0 = t.val % 25 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, 25 ≤ t.val → win0_6.index t 0 = t.val - 25 ∧ win0_6.index t 1 = 0 :=
  (by decide +kernel : ∀ t : Fin grid0.N, 25 ≤ t.val → win0_6.index t 0 = t.val - 25 ∧ win0_6.index t 1 = 0)

/-! ## The input blocks -/

/-- The adjacency block at point t, entry (p, κ), is the matrix's entry (400 (t mod 25) + p, κ). -/
theorem blk0_apply (c : Dev nD) (t : Fin cfg0.N) (z : S400x10000.Idx) (k : S10000x10000.Idx)
    (hk0 : (k 0).val = 400 * (t.val % 25) + (z 0).val) (hk1 : (k 1).val = (z 1).val) :
    (iblk m c 0 t : Vec Ideal S400x10000 .f32) z = (V m c main_arg1 : S10000x10000.Idx → Elt Ideal .f32) k := by
  unfold iblk
  rw [View.read_apply]
  show V m c main_arg1 _ = V m c main_arg1 k
  congr 1
  funext a
  apply Fin.ext
  match a with
  | ⟨0, _⟩ => show win0_0.index t 0 * 400 + 1 * (z 0).val = (k 0).val; rw [(idx0 t).1, hk0]; omega
  | ⟨1, _⟩ => show win0_0.index t 1 * 10000 + 1 * (z 1).val = (k 1).val; rw [(idx0 t).2, hk1]; omega

/-- Window 1's block is its whole array at every point. -/
theorem blk1_eq (c : Dev nD) (t : Fin cfg0.N) :
    (iblk m c 1 t : Vec Ideal S10000x128 .f32) = (V m c main_arg0 : S10000x128.Idx → Elt Ideal .f32) := by
  funext z
  unfold iblk
  rw [View.read_apply]
  show V m c main_arg0 _ = V m c main_arg0 z
  congr 1
  funext a
  apply Fin.ext
  match a with
  | ⟨0, _⟩ => show win0_1.index t 0 * 10000 + 1 * (z 0).val = (z 0).val; rw [(idx1 t).1]; omega
  | ⟨1, _⟩ => show win0_1.index t 1 * 128 + 1 * (z 1).val = (z 1).val; rw [(idx1 t).2]; omega

/-- Window 2's block is its whole array at every point. -/
theorem blk2_eq (c : Dev nD) (t : Fin cfg0.N) :
    (iblk m c 2 t : Vec Ideal S128x128 .f32) = (V m c main_arg2 : S128x128.Idx → Elt Ideal .f32) := by
  funext z
  unfold iblk
  rw [View.read_apply]
  show V m c main_arg2 _ = V m c main_arg2 z
  congr 1
  funext a
  apply Fin.ext
  match a with
  | ⟨0, _⟩ => show win0_2.index t 0 * 128 + 1 * (z 0).val = (z 0).val; rw [(idx2 t).1]; omega
  | ⟨1, _⟩ => show win0_2.index t 1 * 128 + 1 * (z 1).val = (z 1).val; rw [(idx2 t).2]; omega

/-- Window 3's block is its whole array at every point. -/
theorem blk3_eq (c : Dev nD) (t : Fin cfg0.N) :
    (iblk m c 3 t : Vec Ideal S128x128 .f32) = (V m c main_arg4 : S128x128.Idx → Elt Ideal .f32) := by
  funext z
  unfold iblk
  rw [View.read_apply]
  show V m c main_arg4 _ = V m c main_arg4 z
  congr 1
  funext a
  apply Fin.ext
  match a with
  | ⟨0, _⟩ => show win0_3.index t 0 * 128 + 1 * (z 0).val = (z 0).val; rw [(idx3 t).1]; omega
  | ⟨1, _⟩ => show win0_3.index t 1 * 128 + 1 * (z 1).val = (z 1).val; rw [(idx3 t).2]; omega

/-- Window 4's block is its whole array at every point. -/
theorem blk4_eq (c : Dev nD) (t : Fin cfg0.N) :
    (iblk m c 4 t : Vec Ideal S1x128 .f32) = (V m c main_v0 : S1x128.Idx → Elt Ideal .f32) := by
  funext z
  unfold iblk
  rw [View.read_apply]
  show V m c main_v0 _ = V m c main_v0 z
  congr 1
  funext a
  apply Fin.ext
  match a with
  | ⟨0, _⟩ => show win0_4.index t 0 * 1 + 1 * (z 0).val = (z 0).val; rw [(idx4 t).1]; omega
  | ⟨1, _⟩ => show win0_4.index t 1 * 128 + 1 * (z 1).val = (z 1).val; rw [(idx4 t).2]; omega

/-- Window 5's block is its whole array at every point. -/
theorem blk5_eq (c : Dev nD) (t : Fin cfg0.N) :
    (iblk m c 5 t : Vec Ideal S1x128 .f32) = (V m c main_v1 : S1x128.Idx → Elt Ideal .f32) := by
  funext z
  unfold iblk
  rw [View.read_apply]
  show V m c main_v1 _ = V m c main_v1 z
  congr 1
  funext a
  apply Fin.ext
  match a with
  | ⟨0, _⟩ => show win0_5.index t 0 * 1 + 1 * (z 0).val = (z 0).val; rw [(idx5 t).1]; omega
  | ⟨1, _⟩ => show win0_5.index t 1 * 128 + 1 * (z 1).val = (z 1).val; rw [(idx5 t).2]; omega

/-! ## The biases as rows -/

/-- The first bias as the [1, 128] row the host's reshape makes of it, and that row's entries. -/
theorem b1row_eq (c : Dev nD) :
    (V m c main_v0 : S1x128.Idx → Elt Ideal .f32)
      = shapeCast S1x128 (m ((c : Thread nD τ).loc main_arg3) : S128.Idx → Elt Ideal .f32) shapeCasts_S128_S1x128 := by
  dsimp only [V, hostOps0]
  after_results
  rfl
theorem b1row_apply (c : Dev nD) (q : Fin 128) :
    (V m c main_v0 : S1x128.Idx → Elt Ideal .f32) (ix2 (0 : Fin 1) q) = (m ((c : Thread nD τ).loc main_arg3) : S128.Idx → Elt Ideal .f32) (ix1 q) := by
  rw [b1row_eq]; exact shapeCast_a_1a_apply _ _ 0 q

/-- The second bias likewise. -/
theorem b2row_eq (c : Dev nD) :
    (V m c main_v1 : S1x128.Idx → Elt Ideal .f32)
      = shapeCast S1x128 (m ((c : Thread nD τ).loc main_arg5) : S128.Idx → Elt Ideal .f32) shapeCasts_S128_S1x128 := by
  dsimp only [V, hostOps0]
  after_results
  rfl
theorem b2row_apply (c : Dev nD) (q : Fin 128) :
    (V m c main_v1 : S1x128.Idx → Elt Ideal .f32) (ix2 (0 : Fin 1) q) = (m ((c : Thread nD τ).loc main_arg5) : S128.Idx → Elt Ideal .f32) (ix1 q) := by
  rw [b2row_eq]; exact shapeCast_a_1a_apply _ _ 0 q

end Cert.KernelIdeal.Val

end
-- ==== Proof.LibPlainDot.lean ====
/-
  A plain matrix product read at an entry.

  A kernel's matrix unit multiplies an [a, k] matrix by a [k, b] matrix into a zero accumulator.  Over the extended
  reals the entry (r, c) of the product is the sum over the k contraction positions of the left entry (r, κ) times the
  right entry (κ, c): the textbook formula, for any contraction record of that plain layout (no batch axis; rows and
  columns kept; the left operand's second axis contracted with the right operand's first).
-/
import Idealize.ShloMosaic.Lib.ValueIdx
import Idealize.ShloMosaic.PureOps.Ideal.Laws

namespace Cert.PlainDot

open Idealize.ShloMosaic Idealize.ShloMosaic.ValueIdx

/-- Two spellings of one axis read the same coordinate. -/
theorem coord_congr {s : Shape} (j : s.Idx) (p q : ℕ) (hp : p < s.rank) (hq : q < s.rank) (h : p = q) :
    (j ⟨p, hp⟩).val = (j ⟨q, hq⟩).val := by subst h; rfl

variable {a k b : ℕ} (D : DotDims ⟨2, ![a, k]⟩ ⟨2, ![k, b]⟩ ⟨2, ![a, b]⟩)

/-- The left operand is read in the result's row. -/
theorem lhs_row (hlb : D.lhsBatch = []) (hln : D.lhsNonContracting = [(0 : Fin 2)])
    (j : (⟨2, ![a, b]⟩ : Shape).Idx) (q : D.contr.Idx) : (D.lhsIdx j q (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand is read in the result's column. -/
theorem rhs_col (hlb : D.lhsBatch = []) (hln : D.lhsNonContracting = [(0 : Fin 2)]) (hrb : D.rhsBatch = [])
    (hrn : D.rhsNonContracting = [(1 : Fin 2)])
    (j : (⟨2, ![a, b]⟩ : Shape).Idx) (q : D.contr.Idx) : (D.rhsIdx j q (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- Entry (r, c) of the product into a zero accumulator is Σ_κ lhs(r, κ) · rhs(κ, c). -/
theorem matmul_zero_apply (hr : D.contr.rank = 1) (hs : D.contr.size ⟨0, by omega⟩ = k)
    (hlb : D.lhsBatch = []) (hln : D.lhsNonContracting = [(0 : Fin 2)]) (hlc : D.lhsContracting = [(1 : Fin 2)])
    (hrb : D.rhsBatch = []) (hrn : D.rhsNonContracting = [(1 : Fin 2)]) (hrc : D.rhsContracting = [(0 : Fin 2)])
    {φ₁ φ₂ : FTy} (prec : Option ContractPrecision)
    (lhs : FVec Ideal ⟨2, ![a, k]⟩ φ₁) (rhs : FVec Ideal ⟨2, ![k, b]⟩ φ₂) (r : Fin a) (c : Fin b) :
    matmul D prec lhs rhs (constant ⟨2, ![a, b]⟩ .f32 0x00000000#32) (ix2 r c) = ∑ κ : Fin k, lhs (ix2 r κ) * rhs (ix2 κ c) := by
  show FloatOps.matmul D prec lhs rhs (constant ⟨2, ![a, b]⟩ .f32 0x00000000#32) (ix2 r c) = _
  rw [Ideal.matmul_constant_zero_apply, ← Equiv.sum_comp (contrEquiv1 D k hr hs).symm]
  refine Finset.sum_congr rfl fun κ _ => ?_
  have hk := contrEquiv1_symm_val D k hr hs κ
  have el : D.lhsIdx (ix2 r c) ((contrEquiv1 D k hr hs).symm κ) = ix2 r κ := funext fun ax => Fin.ext (by
    match ax with
    | ⟨0, _⟩ => exact lhs_row D hlb hln _ _
    | ⟨1, _⟩ => exact (D.lhsIdx_val_of_single hlc _ _).trans hk)
  have er : D.rhsIdx (ix2 r c) ((contrEquiv1 D k hr hs).symm κ) = ix2 κ c := funext fun ax => Fin.ext (by
    match ax with
    | ⟨0, _⟩ => exact (D.rhsIdx_val_of_single hrc _ _).trans hk
    | ⟨1, _⟩ => exact rhs_col D hlb hln hrb hrn _ _)
  rw [el, er]

end Cert.PlainDot
-- ==== Proof.KIVal2.lean ====
/-
  The kernel's arithmetic at an entry, over the extended reals. A change of float format is the identity there, a
  matrix product into a zero accumulator is the plain sum of products, and the rectifier is a maximum with the zero
  word. So, with A the adjacency matrix, X the node features, W1, W2 the weights and b1, b2 the biases:
    S1 (r, q) = Σ_κ X (r, κ) W1 (κ, q)
    H  (r, q) = max (Σ_κ A (r, κ) S1 (κ, q) + b1 (q), 0)
    S2 (r, q) = Σ_j H (r, j) W2 (j, q)
    out (r, q) = max (Σ_κ A (r, κ) S2 (κ, q) + b2 (q), 0) + H (r, q),
  each read off the block of the point that computes the row: row r belongs to point r / 400 of the first pass and to
  point 25 + r / 400 of the second.
-/
import proofs.«145158_g77695958385289_cont_9to1_m_732_18_alg».proof.Proof.KIVal1
import proofs.«145158_g77695958385289_cont_9to1_m_732_18_alg».proof.Proof.LibPlainDot
import Idealize.ShloMosaic.PureOps.Ideal.Laws

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Body

variable (m : (ℓ : Loc nD τ sig) → Buf (Elt Ideal) ℓ)

/-! ## The payloads at an entry -/

/-- The zero word of the rectifier, as both programs spell it. -/
abbrev zeroW : EReal := Ideal.ofBits .f32 0x00000000#32

theorem pay1_apply (x : Vec Ideal S10000x128 .f32) (w : Vec Ideal S128x128 .f32) (r : Fin 10000) (q : Fin 128) :
    k0_pay1 x w (ix2 r q) = ∑ κ : Fin 128, x (ix2 r κ) * w (ix2 κ q) := by
  unfold k0_pay1
  rw [shapeCast_self, truncf_apply]
  exact Cert.PlainDot.matmul_zero_apply dot_S10000x128_S128x128_S10000x128_1_0_0_1_n_n rfl rfl rfl rfl rfl rfl rfl rfl none x w r q

theorem pay2_apply (a : Vec Ideal S400x10000 .f32) (s : Vec Ideal S10000x128 .bf16) (b : Vec Ideal S1x128 .f32) (p : Fin 400) (q : Fin 128) :
    k0_pay2 a s b (ix2 p q) = max (∑ κ : Fin 10000, a (ix2 p κ) * s (ix2 κ q) + b (ix2 (0 : Fin 1) q)) zeroW := by
  unfold k0_pay2
  rw [maximumf_apply, addf_apply, broadcast_apply, broadcastTo_1b_ab_apply, shapeCast_self,
    Cert.PlainDot.matmul_zero_apply dot_S400x10000_S10000x128_S400x128_1_0_0_1_n_n rfl rfl rfl rfl rfl rfl rfl rfl none a s p q]
  rfl

theorem pay3_eq (a : Vec Ideal S400x10000 .f32) (s : Vec Ideal S10000x128 .bf16) (b : Vec Ideal S1x128 .f32) :
    k0_pay3 a s b = k0_pay2 a s b := by
  unfold k0_pay3
  exact shapeCast_self _ _

theorem pay4_apply (a : Vec Ideal S400x10000 .f32) (s : Vec Ideal S10000x128 .bf16) (b : Vec Ideal S1x128 .f32) (w : Vec Ideal S128x128 .f32)
    (p : Fin 400) (q : Fin 128) :
    k0_pay4 a s b w (ix2 p q) = ∑ j : Fin 128, k0_pay2 a s b (ix2 p j) * w (ix2 j q) := by
  unfold k0_pay4
  rw [shapeCast_self, truncf_apply]
  exact Cert.PlainDot.matmul_zero_apply dot_S400x128_S128x128_S400x128_1_0_0_1_n_n rfl rfl rfl rfl rfl rfl rfl rfl none (k0_pay2 a s b) w p q

theorem pay5_apply (a : Vec Ideal S400x10000 .f32) (s : Vec Ideal S10000x128 .bf16) (b : Vec Ideal S1x128 .f32) (h : Vec Ideal S400x128 .f32)
    (p : Fin 400) (q : Fin 128) :
    k0_pay5 a s b h (ix2 p q) = max (∑ κ : Fin 10000, a (ix2 p κ) * s (ix2 κ q) + b (ix2 (0 : Fin 1) q)) zeroW + h (ix2 p q) := by
  unfold k0_pay5
  rw [addf_apply, maximumf_apply, addf_apply, broadcast_apply, broadcastTo_1b_ab_apply, shapeCast_self,
    Cert.PlainDot.matmul_zero_apply dot_S400x10000_S10000x128_S400x128_1_0_0_1_n_n rfl rfl rfl rfl rfl rfl rfl rfl none a s p q]
  rfl

/-! ## The tracked arrays at an entry -/

/-- The argument arrays as the region finds them, over the extended reals: the node features, the adjacency matrix,
    the two weight matrices, and the two biases as [1, 128] rows. -/
abbrev Xa (c : Dev nD) : S10000x128.Idx → EReal := V m c main_arg0
abbrev Aa (c : Dev nD) : S10000x10000.Idx → EReal := V m c main_arg1
abbrev W1a (c : Dev nD) : S128x128.Idx → EReal := V m c main_arg2
abbrev W2a (c : Dev nD) : S128x128.Idx → EReal := V m c main_arg4
abbrev B1r (c : Dev nD) : S1x128.Idx → EReal := V m c main_v0
abbrev B2r (c : Dev nD) : S1x128.Idx → EReal := V m c main_v1

/-- The first support at an entry. -/
theorem s1_apply (c : Dev nD) (r : Fin 10000) (q : Fin 128) :
    s1 m c (ix2 r q) = ∑ κ : Fin 128, Xa m c (ix2 r κ) * W1a m c (ix2 κ q) := by
  unfold s1
  refine (pay1_apply _ _ r q).trans ?_
  rw [blk1_eq, blk2_eq]

/-- Row r = 400 b + p of the hidden layer is row p of what point b computes. -/
theorem hFull_block (c : Dev nD) (b : Fin cfg0.N) (p : Fin 400) (q : Fin 128) (r : Fin 10000) (hr : r.val = 400 * b.val + p.val) :
    hFull m c (ix2 r q) = k0_pay2 (iblk m c 0 b) (s1 m c) (iblk m c 4 b) (ix2 p q) := by
  rw [hFull_at m c b (ix2 r q) ⟨by show 400 * b.val ≤ r.val; omega, by show r.val < 400 * b.val + 400; have := p.isLt; omega⟩]
  rw [pay3_eq]
  congr 1
  funext a; apply Fin.ext
  match a with
  | ⟨0, _⟩ => show r.val - 400 * b.val = p.val; omega
  | ⟨1, _⟩ => show q.val - 0 = q.val; omega

theorem s2Full_block (c : Dev nD) (b : Fin cfg0.N) (p : Fin 400) (q : Fin 128) (r : Fin 10000) (hr : r.val = 400 * b.val + p.val) :
    s2Full m c (ix2 r q) = k0_pay4 (iblk m c 0 b) (s1 m c) (iblk m c 4 b) (iblk m c 3 b) (ix2 p q) := by
  rw [s2Full_at m c b (ix2 r q) ⟨by show 400 * b.val ≤ r.val; omega, by show r.val < 400 * b.val + 400; have := p.isLt; omega⟩]
  congr 1
  funext a; apply Fin.ext
  match a with
  | ⟨0, _⟩ => show r.val - 400 * b.val = p.val; omega
  | ⟨1, _⟩ => show q.val - 0 = q.val; omega

/-- The point and the row within its block that row r belongs to. -/
def ptOf (r : Fin 10000) : Fin cfg0.N := ⟨r.val / 400, by rw [N50]; have := r.isLt; omega⟩
def inOf (r : Fin 10000) : Fin 400 := ⟨r.val % 400, Nat.mod_lt _ (by decide)⟩
theorem row_split (r : Fin 10000) : r.val = 400 * (ptOf r).val + (inOf r).val := by
  show r.val = 400 * (r.val / 400) + r.val % 400; omega
theorem ptOf_lt (r : Fin 10000) : (ptOf r).val < 25 := by show r.val / 400 < 25; have := r.isLt; omega

/-- The hidden layer at an entry. -/
theorem hFull_apply (c : Dev nD) (r : Fin 10000) (q : Fin 128) :
    hFull m c (ix2 r q) = max (∑ κ : Fin 10000, Aa m c (ix2 r κ) * s1 m c (ix2 κ q) + B1r m c (ix2 (0 : Fin 1) q)) zeroW := by
  rw [hFull_block m c (ptOf r) (inOf r) q r (row_split r)]
  refine (pay2_apply _ _ _ _ _).trans ?_
  rw [blk4_eq]
  congr 2
  refine Finset.sum_congr rfl fun κ _ => ?_
  congr 1
  exact blk0_apply m c (ptOf r) _ _ (by
    show r.val = 400 * ((ptOf r).val % 25) + (inOf r).val
    have := row_split r; have := ptOf_lt r; omega) rfl

/-- The second support at an entry. -/
theorem s2Full_apply (c : Dev nD) (r : Fin 10000) (q : Fin 128) :
    s2Full m c (ix2 r q) = ∑ j : Fin 128, hFull m c (ix2 r j) * W2a m c (ix2 j q) := by
  rw [s2Full_block m c (ptOf r) (inOf r) q r (row_split r)]
  refine (pay4_apply _ _ _ _ _ _).trans ?_
  rw [blk3_eq]
  refine Finset.sum_congr rfl fun j _ => ?_
  rw [hFull_block m c (ptOf r) (inOf r) j r (row_split r)]

/-- The rows of the hidden layer a point of the second pass loads. -/
theorem ld_hFull (c : Dev nD) (t : Fin cfg0.N) (h : 25 ≤ t.val)
    (inb : ∀ a : Fin 2, k0_off2 (grid0.coords t) a + S400x128.size a ≤ S10000x128.size a) (p : Fin 400) (q : Fin 128) (r : Fin 10000)
    (hr : r.val = 400 * (t.val - 25) + p.val) :
    View.ld (hFull m c) (Rect.unit (s := S10000x128) (k0_off2 (grid0.coords t)) S400x128.size inb) (ix2 p q) = hFull m c (ix2 r q) := by
  show hFull m c _ = hFull m c _
  congr 1
  funext a; apply Fin.ext
  have e0 := congrFun (off2_eq t h) 0
  have e1 := congrFun (off2_eq t h) 1
  match a with
  | ⟨0, _⟩ => show k0_off2 (grid0.coords t) 0 + 1 * p.val = r.val; rw [e0, hr]; show 400 * (t.val - 25) + 1 * p.val = _; omega
  | ⟨1, _⟩ => show k0_off2 (grid0.coords t) 1 + 1 * q.val = q.val; rw [e1]; show 0 + 1 * q.val = _; omega

/-- The output block of a point of the second pass at an entry: row p of the block is row 400 (t - 25) + p of the result. -/
theorem outAt_apply (c : Dev nD) (t : Fin cfg0.N) (h : 25 ≤ t.val) (p : Fin 400) (q : Fin 128) (r : Fin 10000)
    (hr : r.val = 400 * (t.val - 25) + p.val) :
    outAt m c t (ix2 p q) = max (∑ κ : Fin 10000, Aa m c (ix2 r κ) * s2Full m c (ix2 κ q) + B2r m c (ix2 (0 : Fin 1) q)) zeroW + hFull m c (ix2 r q) := by
  unfold outAt
  rw [dif_pos h]
  refine (pay5_apply _ _ _ _ _ _).trans ?_
  rw [blk5_eq, ld_hFull m c t h _ p q r hr]
  congr 3
  refine Finset.sum_congr rfl fun κ _ => ?_
  congr 1
  exact blk0_apply m c t _ _ (by
    show r.val = 400 * (t.val % 25) + p.val
    have := lt_of_lt_of_eq t.isLt N50; omega) rfl

end Cert.KernelIdeal.Val

end
-- ==== Proof.KIVal3.lean ====
/-
  The kernel's result is the reference's. The reference computes, as whole arrays, S1 = X W1, H = max(A S1 + b1, 0),
  S2 = H W2 and max(A S2 + b2, 0) + H, each a stage of its run read at an entry as a sum of products, a sum with a
  bias entry, or a maximum with the zero word. Entry by entry these are the formulas the kernel's three scratch arrays
  and its output blocks satisfy, so each tracked array is the stage, and the block the kernel writes back at point
  25 + b is rows 400 b .. 400 b + 399 of the last stage. The 25 blocks of the second pass tile the result array.
  No law beyond reading both sides at an entry is used: the two programs add and multiply the same terms in the same
  grouping, so nothing here depends on the inputs being finite.
-/
import proofs.«145158_g77695958385289_cont_9to1_m_732_18_alg».proof.Proof.KIVal2
import proofs.«145158_g77695958385289_cont_9to1_m_732_18_alg».proof.Proof.Gen.ReferenceIdeal.Read

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Body

variable (m : (ℓ : Loc nD τ sig) → Buf (Elt Ideal) ℓ)

/-- The six argument arrays as launched, over the extended reals. -/
abbrev Xm (c : Dev nD) : S10000x128.Idx → EReal := m ((c : Thread nD τ).loc main_arg0)
abbrev Am (c : Dev nD) : S10000x10000.Idx → EReal := m ((c : Thread nD τ).loc main_arg1)
abbrev W1m (c : Dev nD) : S128x128.Idx → EReal := m ((c : Thread nD τ).loc main_arg2)
abbrev B1m (c : Dev nD) : S128.Idx → EReal := m ((c : Thread nD τ).loc main_arg3)
abbrev W2m (c : Dev nD) : S128x128.Idx → EReal := m ((c : Thread nD τ).loc main_arg4)
abbrev B2m (c : Dev nD) : S128.Idx → EReal := m ((c : Thread nD τ).loc main_arg5)

/-- No host operation before the region writes an argument array, and the bias rows are the biases. -/
theorem Xa_eq (c : Dev nD) : Xa m c = Xm m c := V_main_arg0 m c
theorem Aa_eq (c : Dev nD) : Aa m c = Am m c := V_main_arg1 m c
theorem W1a_eq (c : Dev nD) : W1a m c = W1m m c := V_main_arg2 m c
theorem W2a_eq (c : Dev nD) : W2a m c = W2m m c := V_main_arg4 m c
theorem B1r_apply (c : Dev nD) (q : Fin 128) : B1r m c (ix2 (0 : Fin 1) q) = B1m m c (ix1 q) := b1row_apply m c q
theorem B2r_apply (c : Dev nD) (q : Fin 128) : B2r m c (ix2 (0 : Fin 1) q) = B2m m c (ix1 q) := b2row_apply m c q

/-! ## The reference's stages at an entry -/

section Stages

variable (x0 : S10000x128.Idx → EReal) (x1 : S10000x10000.Idx → EReal) (x2 : S128x128.Idx → EReal) (x3 : S128.Idx → EReal)
  (x4 : S128x128.Idx → EReal) (x5 : S128.Idx → EReal)

theorem ref_v0 (r : Fin 10000) (q : Fin 128) :
    Cert.ReferenceIdeal.Read.val_main_v0 (F := Ideal) x0 x2 (ix2 r q) = ∑ κ : Fin 128, x0 (ix2 r κ) * x2 (ix2 κ q) := by
  rw [Cert.ReferenceIdeal.Read.val_main_v0_apply]
  refine Finset.sum_congr rfl fun κ _ => ?_
  congr 2 <;> (funext a; match a with | ⟨0, _⟩ => rfl | ⟨1, _⟩ => rfl)

theorem ref_v5 (r : Fin 10000) (q : Fin 128) :
    Cert.ReferenceIdeal.Read.val_main_v5 (F := Ideal) x0 x1 x2 x3 (ix2 r q)
      = max (∑ κ : Fin 10000, x1 (ix2 r κ) * Cert.ReferenceIdeal.Read.val_main_v0 (F := Ideal) x0 x2 (ix2 κ q) + x3 (ix1 q)) zeroW := by
  rw [Cert.ReferenceIdeal.Read.val_main_v5_apply, Cert.ReferenceIdeal.Read.val_main_v4_apply, Cert.ReferenceIdeal.Read.val_main_v1_apply, Cert.ReferenceIdeal.Read.val_main_v3_apply,
    Cert.ReferenceIdeal.Read.val_main_v2_apply, Cert.ReferenceIdeal.Read.val_main_call0_v0_apply, Cert.ReferenceIdeal.Read.val_main_call0_cst_apply]
  show max ((∑ κ : Fin 10000, _) + _) _ = max ((∑ κ : Fin 10000, _) + _) _
  congr 2
  · refine Finset.sum_congr rfl fun κ _ => ?_
    congr 2 <;> (funext a; match a with | ⟨0, _⟩ => rfl | ⟨1, _⟩ => rfl)
  · congr 1; funext a; match a with | ⟨0, _⟩ => rfl

theorem ref_v6 (r : Fin 10000) (q : Fin 128) :
    Cert.ReferenceIdeal.Read.val_main_v6 (F := Ideal) x0 x1 x2 x3 x4 (ix2 r q)
      = ∑ j : Fin 128, Cert.ReferenceIdeal.Read.val_main_v5 (F := Ideal) x0 x1 x2 x3 (ix2 r j) * x4 (ix2 j q) := by
  rw [Cert.ReferenceIdeal.Read.val_main_v6_apply]
  refine Finset.sum_congr rfl fun κ _ => ?_
  congr 2 <;> (funext a; match a with | ⟨0, _⟩ => rfl | ⟨1, _⟩ => rfl)

theorem ref_v12 (r : Fin 10000) (q : Fin 128) :
    Cert.ReferenceIdeal.Read.val_main_v12 (F := Ideal) x0 x1 x2 x3 x4 x5 (ix2 r q)
      = max (∑ κ : Fin 10000, x1 (ix2 r κ) * Cert.ReferenceIdeal.Read.val_main_v6 (F := Ideal) x0 x1 x2 x3 x4 (ix2 κ q) + x5 (ix1 q)) zeroW
        + Cert.ReferenceIdeal.Read.val_main_v5 (F := Ideal) x0 x1 x2 x3 (ix2 r q) := by
  rw [Cert.ReferenceIdeal.Read.val_main_v12_apply, Cert.ReferenceIdeal.Read.val_main_v11_apply, Cert.ReferenceIdeal.Read.val_main_v10_apply, Cert.ReferenceIdeal.Read.val_main_v7_apply, Cert.ReferenceIdeal.Read.val_main_v9_apply,
    Cert.ReferenceIdeal.Read.val_main_v8_apply, Cert.ReferenceIdeal.Read.val_main_call1_v0_apply, Cert.ReferenceIdeal.Read.val_main_call1_cst_apply]
  show max ((∑ κ : Fin 10000, _) + _) _ + _ = max ((∑ κ : Fin 10000, _) + _) _ + _
  congr 3
  · refine Finset.sum_congr rfl fun κ _ => ?_
    congr 2 <;> (funext a; match a with | ⟨0, _⟩ => rfl | ⟨1, _⟩ => rfl)
  · congr 1; funext a; match a with | ⟨0, _⟩ => rfl

end Stages

/-! ## The tracked arrays are the stages -/

theorem s1_ref (c : Dev nD) (r : Fin 10000) (q : Fin 128) :
    s1 m c (ix2 r q) = Cert.ReferenceIdeal.Read.val_main_v0 (F := Ideal) (Xm m c) (W1m m c) (ix2 r q) := by
  rw [s1_apply, ref_v0, Xa_eq, W1a_eq]

theorem hFull_ref (c : Dev nD) (r : Fin 10000) (q : Fin 128) :
    hFull m c (ix2 r q) = Cert.ReferenceIdeal.Read.val_main_v5 (F := Ideal) (Xm m c) (Am m c) (W1m m c) (B1m m c) (ix2 r q) := by
  rw [hFull_apply, ref_v5, B1r_apply, Aa_eq]
  congr 2
  refine Finset.sum_congr rfl fun κ _ => ?_
  rw [s1_ref]

theorem s2Full_ref (c : Dev nD) (r : Fin 10000) (q : Fin 128) :
    s2Full m c (ix2 r q) = Cert.ReferenceIdeal.Read.val_main_v6 (F := Ideal) (Xm m c) (Am m c) (W1m m c) (B1m m c) (W2m m c) (ix2 r q) := by
  rw [s2Full_apply, ref_v6, W2a_eq]
  refine Finset.sum_congr rfl fun j _ => ?_
  rw [hFull_ref]

/-- The kernel's result: the reference's last stage of the kernel's own argument arrays. -/
def result (c : Dev nD) : S10000x128.Idx → EReal :=
  Cert.ReferenceIdeal.Read.val_main_v12 (F := Ideal) (Xm m c) (Am m c) (W1m m c) (B1m m c) (W2m m c) (B2m m c)

/-- The block a point of the second pass stores is its 400 rows of the result. -/
theorem outAt_ref (c : Dev nD) (t : Fin cfg0.N) (h : 25 ≤ t.val) (p : Fin 400) (q : Fin 128) (r : Fin 10000)
    (hr : r.val = 400 * (t.val - 25) + p.val) :
    outAt m c t (ix2 p q) = result m c (ix2 r q) := by
  unfold result
  rw [outAt_apply m c t h p q r hr, ref_v12, B2r_apply, Aa_eq, hFull_ref]
  have hs : (∑ κ : Fin 10000, Am m c (ix2 r κ) * s2Full m c (ix2 κ q))
      = ∑ κ : Fin 10000, Am m c (ix2 r κ) * Cert.ReferenceIdeal.Read.val_main_v6 (F := Ideal) (Xm m c) (Am m c) (W1m m c) (B1m m c) (W2m m c) (ix2 κ q) :=
    Finset.sum_congr rfl fun κ _ => by rw [s2Full_ref]
  rw [hs]

/-! ## From the blocks to the array -/

theorem xsize6 : ∀ t : Fin cfg0.N, win0_6.xsize (grid0.coords t) 0 = 400 ∧ win0_6.xsize (grid0.coords t) 1 = 128 :=
  (by decide +kernel : ∀ t : Fin grid0.N, win0_6.xsize (grid0.coords t) 0 = 400 ∧ win0_6.xsize (grid0.coords t) 1 = 128)

/-- A point that writes the output block back is in the second pass. -/
theorem pass2_of_flush (t : Fin cfg0.N) (hf : (cfg0.win 6).flush t = true) : 25 ≤ t.val := by
  by_contra hlt
  have := noFlush6 t (by omega)
  rw [this] at hf
  exact Bool.false_ne_true hf

/-- What a point writes back is its block of the result. -/
theorem flushed_eq (c : Dev nD) (t : Fin cfg0.N) (hf : (cfg0.win 6).flush t = true) :
    (dats m 0 c).flushed 6 t = ((cfg0.win 6).blk t).view.read (Elt Ideal) (result m c) := by
  have h := pass2_of_flush t hf
  have hN : t.val < 50 := lt_of_lt_of_eq t.isLt N50
  show (cfg0.win 6).cut (grid0.coords t) ((dats m 0 c).after 6 t) = _
  rw [after6]
  funext z
  rw [View.read_apply]
  show outAt m c t z = result m c (((cfg0.win 6).blk t).view.emb z)
  obtain ⟨p, q, rfl⟩ : ∃ (p : Fin 400) (q : Fin 128), z = ix2 p q := ⟨z 0, z 1, eq_ix2 z⟩
  rw [outAt_ref m c t h p q ⟨400 * (t.val - 25) + p.val, by have := p.isLt; omega⟩ rfl]
  congr 1
  funext a; apply Fin.ext
  match a with
  | ⟨0, _⟩ => show 400 * (t.val - 25) + p.val = win0_6.index t 0 * 400 + 1 * p.val; rw [(idx6 t h).1]; omega
  | ⟨1, _⟩ => show q.val = win0_6.index t 1 * 128 + 1 * q.val; rw [(idx6 t h).2]; omega

/-- The blocks of the second pass tile the result array, so it ends holding the result. -/
theorem final (c : Dev nD) : (dats m 0 c).arrAt 6 cfg0.N = result m c :=
  (dats m 0 c).arrAt_eq_of_cover 6 (result m c) (flushed_eq m c) fun i => by
    have hi0 : (i 0 : Nat) < 10000 := (i 0).isLt
    have hi1 : (i 1 : Nat) < 128 := (i 1).isLt
    obtain ⟨t, ht⟩ : ∃ t : Fin cfg0.N, t.val = 25 + (i 0 : Nat) / 400 := ⟨⟨25 + (i 0 : Nat) / 400, by rw [N50]; omega⟩, rfl⟩
    have h : 25 ≤ t.val := by omega
    refine ⟨t, flush6 t h, ?_⟩
    show i ∈ ((View.whole main_v2).slice (win0_6.rect t)).set
    rw [View.set_slice_whole, Rect.mem_set_unit]
    intro a
    match a with
    | ⟨0, _⟩ =>
      show win0_6.index t 0 * win0_6.size 0 ≤ (i 0 : Nat) ∧ (i 0 : Nat) < win0_6.index t 0 * win0_6.size 0 + win0_6.xsize (grid0.coords t) 0
      rw [(idx6 t h).1, (xsize6 t).1]
      show (t.val - 25) * 400 ≤ (i 0 : Nat) ∧ (i 0 : Nat) < (t.val - 25) * 400 + 400
      omega
    | ⟨1, _⟩ =>
      show win0_6.index t 1 * win0_6.size 1 ≤ (i 1 : Nat) ∧ (i 1 : Nat) < win0_6.index t 1 * win0_6.size 1 + win0_6.xsize (grid0.coords t) 1
      rw [(idx6 t h).2, (xsize6 t).2]
      show 0 * 128 ≤ (i 1 : Nat) ∧ (i 1 : Nat) < 0 * 128 + 128
      omega

/-- The kernel's run, read: the result array ends at the result and the six argument arrays are unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c)⟩)
    (run_main (F := Ideal) m ρ)

end Cert.KernelIdeal.Val

end
-- ==== Proof.lean ====
/-
  The certificate of a two-layer graph convolution with a dense adjacency matrix A [10000, 10000], node features
  X [10000, 128], weights W1, W2 [128, 128] and biases b1, b2 [128]:

      H   = max (A (X W1) + b1, 0)
      out = max (A (H W2) + b2, 0) + H.

  The kernel makes two passes of 25 grid points over the 400-row blocks of A. The first point computes X W1 into a
  scratch buffer; point t of the first pass computes rows 400 t .. of H and of H W2 into two more scratch buffers; point
  25 + t of the second pass stores rows 400 t .. of the result, written back block by block. The reference computes the
  same four arrays whole. Over the extended reals a change of float format is the identity and a matrix product into a
  zero accumulator is the plain sum of products, so entry by entry the two programs evaluate one expression: the
  equality uses no algebraic law, hence no finiteness of the inputs.

  The three frames: each kernel program by the run of its body in three cases (the first point, the rest of the first
  pass, the second pass) under an invariant that carries the three scratch buffers between points; the reference by its
  run with the result dropped. The idealization rewrote no operation, so there is nothing to preserve. The value claim:
  the kernel's run with its result array named, against the reference's run at the same arrays.
-/
import proofs.«145158_g77695958385289_cont_9to1_m_732_18_alg».proof.Defs
import proofs.«145158_g77695958385289_cont_9to1_m_732_18_alg».proof.Proof.Gen.Kernel
import proofs.«145158_g77695958385289_cont_9to1_m_732_18_alg».proof.Proof.Gen.KernelIdeal
import proofs.«145158_g77695958385289_cont_9to1_m_732_18_alg».proof.Proof.Gen.ReferenceIdeal
import proofs.«145158_g77695958385289_cont_9to1_m_732_18_alg».proof.Proof.Gen.ReferenceIdeal.Run
import proofs.«145158_g77695958385289_cont_9to1_m_732_18_alg».proof.Proof.Gen.ReferenceIdeal.Read
import proofs.«145158_g77695958385289_cont_9to1_m_732_18_alg».proof.Proof.Gen.Pre_finite_inputs
import proofs.«145158_g77695958385289_cont_9to1_m_732_18_alg».proof.Proof.KBBody
import proofs.«145158_g77695958385289_cont_9to1_m_732_18_alg».proof.Proof.KIVal3
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel := fun m ρ _ => Cert.Kernel.Body.frame (F := Bits) m ρ

/-- So does the kernel read over the extended reals. -/
theorem frame_ki : Cert.frame_KernelIdeal := fun m ρ _ => Cert.KernelIdeal.Body.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the same result array: the reference's last
    stage of those arguments. -/
theorem algebraic : Cert.algebraic_KernelIdeal_ReferenceIdeal := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2.1, (hagree c).2.2.1, (hagree c).2.2.2.1,
    (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
